-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S3x128x128 .f32) (main_arg3 : FVec F S128 .f32) (main_arg4 : FVec F S128 .f32) (main_arg5 : FVec F S128 .f32) (main_arg6 : FVec F S128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x64 : Shape := ⟨2, ![100000, 64]⟩
abbrev S2000x128 : Shape := ⟨2, ![2000, 128]⟩
abbrev S2000x64 : Shape := ⟨2, ![2000, 64]⟩
abbrev S1x128x128 : Shape := ⟨3, ![1, 128, 128]⟩
abbrev S128x128 : Shape := ⟨2, ![128, 128]⟩
abbrev S1x128 : Shape := ⟨2, ![1, 128]⟩
abbrev S1600000x64 : Shape := ⟨2, ![1600000, 64]⟩
abbrev S100000x1 : Shape := ⟨2, ![100000, 1]⟩
abbrev S2000x1 : Shape := ⟨2, ![2000, 1]⟩
abbrev S1x64 : Shape := ⟨2, ![1, 64]⟩
abbrev S2000 : Shape := ⟨1, ![2000]⟩

abbrev nBuf : Space → Nat
  | .hbm => 130
  | .vmem => 24
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1600000x128, .f32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x64, .f32⟩
  | 88 => ⟨S_, .f32⟩
  | 89 => ⟨S100000, .f32⟩
  | 90 => ⟨S100000, .f32⟩
  | 91 => ⟨S100000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S1600000x1, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x64, .f32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S100000, .f32⟩
  | _ => ⟨S100000x128, .f32⟩

abbrev hbmTy0_1 (i : Nat) : BufTy := match i % 128 with
  | 0 => ⟨S100000x1, .f32⟩
  | 1 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S3x128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x1, .f32⟩
  | .local _ .vmem, ⟨20, _⟩ => ⟨S2000x1, .f32⟩
  | .local _ .vmem, ⟨21, _⟩ => ⟨S64, .f32⟩
  | .local _ .vmem, ⟨22, _⟩ => ⟨S2000x64, .f32⟩
  | .local _ .vmem, ⟨23, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S100000x64.size a
  hwx0_10 : ∀ i : grid0.Coords, EltTy.bits .f32 = 32 ∨ (Rect.block (s := S100000x64) S2000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v59) S2000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v90) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v92) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v93) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1x128x128, .f32⟩
  | 52 => ⟨S128x128, .f32⟩
  | 53 => ⟨S100000x128, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1x128x128, .f32⟩
  | 71 => ⟨S128x128, .f32⟩
  | 72 => ⟨S100000x128, .f32⟩
  | 73 => ⟨S100000x128, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S1x128x128, .f32⟩
  | 95 => ⟨S128x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S100000, .f32⟩
  | 122 => ⟨S100000, .f32⟩
  | 123 => ⟨S100000, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S1600000, .f32⟩
  | 15 => ⟨S100000x64, .f32⟩
  | 16 => ⟨S1600000x1, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S1600000x64, .f32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000, .f32⟩
  | 33 => ⟨S100000x1, .f32⟩
  | 34 => ⟨S100000x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x64, .f32⟩
  | 47 => ⟨S100000x64, .f32⟩
  | 48 => ⟨S100000x64, .f32⟩
  | 49 => ⟨S_, .f32⟩
  | 50 => ⟨S100000, .f32⟩
  | 51 => ⟨S100000x1, .f32⟩
  | 52 => ⟨S100000x1, .f32⟩
  | 53 => ⟨S100000x64, .f32⟩
  | 54 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call1_cst : Ref sig .tc := ⟨.hbm, 117, rfl⟩
abbrev main_call1_v0 : Ref sig .tc := ⟨.hbm, 118, rfl⟩
abbrev main_v88 : Ref sig .tc := ⟨.hbm, 119, rfl⟩
abbrev main_cst_15 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_16 : Ref sig .tc := ⟨.hbm, 124, rfl⟩
abbrev main_v92 : Ref sig .tc := ⟨.hbm, 125, rfl⟩
abbrev main_v93 : Ref sig .tc := ⟨.hbm, 126, rfl⟩
abbrev main_c_17 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_18 : Ref sig .tc := ⟨.hbm, 133, rfl⟩
abbrev main_v99 : Ref sig .tc := ⟨.hbm, 134, rfl⟩
abbrev main_v100 : Ref sig .tc := ⟨.hbm, 135, rfl⟩
abbrev main_c_19 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_20 : Ref sig .tc := ⟨.hbm, 145, rfl⟩
abbrev main_v109 : Ref sig .tc := ⟨.hbm, 146, rfl⟩
abbrev main_v110 : Ref sig .tc := ⟨.hbm, 147, rfl⟩
abbrev main_c_21 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_22 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_call2_cst : Ref sig .tc := ⟨.hbm, 168, rfl⟩
abbrev main_call2_v0 : Ref sig .tc := ⟨.hbm, 169, rfl⟩
abbrev main_call2_cst_0 : Ref sig .tc := ⟨.hbm, 170, rfl⟩
abbrev main_call2_v1 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_call2_v5 : Ref sig .tc := ⟨.hbm, 175, rfl⟩
abbrev main_call2_v6 : Ref sig .tc := ⟨.hbm, 176, rfl⟩
abbrev main_call2_cst_1 : Ref sig .tc := ⟨.hbm, 177, rfl⟩
abbrev main_call2_v7 : Ref sig .tc := ⟨.hbm, 178, rfl⟩
abbrev main_call2_v8 : Ref sig .tc := ⟨.hbm, 179, rfl⟩
abbrev main_call2_v9 : Ref sig .tc := ⟨.hbm, 180, rfl⟩
abbrev main_call2_v10 : Ref sig .tc := ⟨.hbm, 181, rfl⟩
abbrev main_v129 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibTypedBuf.lean ====
/-
  Transport of a tensor value to and from its buffer.

  A typed reference carries an equation between its buffer's type and the value's type; contents move along it by
  `cast`. Whatever that equation's proof is, a cast changes nothing up to heterogeneous equality, so a cast value equals
  any value it is heterogeneously equal to, and a round trip is the identity. These let a composed term of typed
  operations be compared with the same term of untyped ones without ever evaluating a buffer's type.
-/
import Idealize.ShloMosaic.Lib.StableHlo

namespace Idealize.ShloMosaic.StableHlo.TRef

variable {sig : RefSig} {Val : EltTy → Type} {T : BufTy}

/-- Reading a buffer's contents at the value's type gives whatever the contents are heterogeneously equal to. -/
theorem ofBuf_eq_of_heq (x : TRef sig T) (v : x.ref.ty.Contents Val) (w : T.Contents Val) (h : HEq v w) : x.ofBuf v = w :=
  eq_of_heq ((cast_heq _ v).trans h)

/-- Storing a value into its buffer gives whatever the value is heterogeneously equal to. -/
theorem toBuf_eq_of_heq (x : TRef sig T) (v : T.Contents Val) (w : x.ref.ty.Contents Val) (h : HEq v w) : x.toBuf v = w :=
  eq_of_heq ((cast_heq _ v).trans h)

/-- Storing a value and reading it back is the identity. -/
theorem ofBuf_toBuf (x : TRef sig T) (v : T.Contents Val) : x.ofBuf (x.toBuf v) = v := by
  apply eq_of_heq
  exact (cast_heq _ _).trans (cast_heq _ v)

end Idealize.ShloMosaic.StableHlo.TRef
-- ==== Proof.ReferenceRun.lean ====
/-
  The reference program's run, read at its stages.

  The reference is a straight line of 173 host operations. Run from any memory, every weakly fair execution ends with
  each buffer at the fold of the operations over the launch memory. Read at the result buffer, that fold is the
  composition of the operations' functions, which is by definition the last stage function of the launch arguments
  (each stage function is its operation applied to the stage functions of its operands); the values a called
  function's typed operations carry to and from their buffers come back unchanged. Read at an argument, which no
  operation writes, the fold is the launch contents.
-/
import proofs.«178533_j58703613002386_2_alg».proof.Proof.RunOpsP
import proofs.«178533_j58703613002386_2_alg».proof.Proof.ReadP
import proofs.«178533_j58703613002386_2_alg».proof.Proof.LibTypedBuf

set_option maxRecDepth 16384

noncomputable section

namespace Cert.Bridge.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxHeartbeats 40000000 in
/-- The fold of the operations at the result buffer is the last stage of the launch arguments. -/
theorem result_eq (m : (ℓ : Loc nD τ sig) → Buf (Elt F) ℓ) (c : Dev nD) :
    after (ops (F := F)) (launchContents m c) (Proc.devRef .tc main_v129)
      = val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  after_results_simp
  simp only [TRef.ofBuf_toBuf]
  rfl

/-! No operation writes an argument's buffer. -/

set_option maxHeartbeats 40000000 in
theorem arg0_kept (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxHeartbeats 40000000 in
theorem arg1_kept (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxHeartbeats 40000000 in
theorem arg2_kept (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxHeartbeats 40000000 in
theorem arg3_kept (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxHeartbeats 40000000 in
theorem arg4_kept (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxHeartbeats 40000000 in
theorem arg5_kept (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxHeartbeats 40000000 in
theorem arg6_kept (m : (ℓ : Loc nD τ sig) → Buf (Elt F) ℓ) (c : Dev nD) :
    after (ops (F := F)) (launchContents m c) (Proc.devRef .tc main_arg6) = m ((c.tc : Thread nD τ).loc main_arg6) := by
  after_results_simp <;> rfl

set_option maxHeartbeats 40000000 in
theorem arg7_kept (m : (ℓ : Loc nD τ sig) → Buf (Elt F) ℓ) (c : Dev nD) :
    after (ops (F := F)) (launchContents m c) (Proc.devRef .tc main_arg7) = m ((c.tc : Thread nD τ).loc main_arg7) := by
  after_results_simp <;> rfl

set_option maxHeartbeats 40000000 in
theorem arg8_kept (m : (ℓ : Loc nD τ sig) → Buf (Elt F) ℓ) (c : Dev nD) :
    after (ops (F := F)) (launchContents m c) (Proc.devRef .tc main_arg8) = m ((c.tc : Thread nD τ).loc main_arg8) := by
  after_results_simp <;> rfl

set_option maxHeartbeats 40000000 in
theorem arg9_kept (m : (ℓ : Loc nD τ sig) → Buf (Elt F) ℓ) (c : Dev nD) :
    after (ops (F := F)) (launchContents m c) (Proc.devRef .tc main_arg9) = m ((c.tc : Thread nD τ).loc main_arg9) := by
  after_results_simp <;> rfl

/-- Every weakly fair execution of the reference terminates without a fault, its result at the last stage of the
    launch arguments and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v129).trans (result_eq m c),
      (h c main_arg0).trans (arg0_kept m c),
      (h c main_arg1).trans (arg1_kept m c),
      (h c main_arg2).trans (arg2_kept m c),
      (h c main_arg3).trans (arg3_kept m c),
      (h c main_arg4).trans (arg4_kept m c),
      (h c main_arg5).trans (arg5_kept m c),
      (h c main_arg6).trans (arg6_kept m c),
      (h c main_arg7).trans (arg7_kept m c),
      (h c main_arg8).trans (arg8_kept m c),
      (h c main_arg9).trans (arg9_kept m c)⟩)
    (run_seq scopedRefs_eq scopedSems_eq defs main (fun _ => ops) main_eq (fun _ => ops_sub) m ρ)

end Cert.Bridge.RefRun

end
-- ==== Proof.KernelRun.lean ====
/-
  The kernel program's run, with its RESULT named.

  The program is six segments: three stretches of host operations, the first pipelined kernel, one more stretch,
  the second pipelined kernel. Its run is the chain of those segments from the launch memory; at the end every
  unscoped buffer of a core holds the last boundary's contents, a fold through the segments: a host stretch
  rewrites the buffers its operations write, a pipelined kernel leaves each of its arrays at what its
  write-backs left. Reading the final state at the result buffer, and at each argument (which no segment
  writes), gives the run below: the result buffer ends at the last boundary's contents there, the arguments as
  launched.
-/
import proofs.«178533_j58703613002386_2_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; its result buffer ends at the
    last boundary's contents and its arguments as launched. -/
theorem kernel_run : θ_run defs (onTc (τ := τ) (main (F := F))) ⟨m, fun _ => 0, ρ⟩ (fun r => ∀ c : Dev nD,
      r.2.mem ((c.tc : Thread nD τ).loc main_v93) = W6 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v93 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.Bridge

end
-- ==== Proof.DenseArray.lean ====
/-
  The first pipelined kernel's output ARRAY as one function of the arrays the kernel is entered with.

  The kernel runs over 50 grid points; point t stages rows 2000·t … 2000·t + 1999 of the three node-feature arrays
  (block index t on the row axis, 0 on the feature axis), the seven small operands whole (block index 0), and writes
  back rows 2000·t … 2000·t + 1999 of its [100000, 64] result. Its body is row-local: entry (p, q) of the block it
  stores is a function `rowF` of the small operands and of row p of the three staged blocks (the hypothesis
  `hblk`). Row p of point t's block is row 2000·t + p of the array, so what point t writes back is block t of the
  ONE array whose entry (r, q) is `rowF` of the small operands and of row r of the three arrays; the 50 blocks
  tile the rows, so after the run the result array is that function.
-/
import proofs.«178533_j58703613002386_2_alg».proof.Proof.Gen.KernelIdeal.Frame
import Idealize.ShloMosaic.Lib.Pipeline.Value
import Idealize.ShloMosaic.Lib.ValueIdx

set_option maxRecDepth 16384

noncomputable section

namespace Cert.Bridge.Dense

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The shape of a row function of the dense stage: the weights, five per-feature vectors, the second weight
    matrix, three feature rows of one node, an output column. -/
abbrev RowFn : Type :=
  (S3x128x128.Idx → EReal) → (S128.Idx → EReal) → (S128.Idx → EReal) → (S128.Idx → EReal) → (S128.Idx → EReal) →
    (S128.Idx → EReal) → (S128x64.Idx → EReal) → (Fin 128 → EReal) → (Fin 128 → EReal) → (Fin 128 → EReal) → Fin 64 → EReal

variable (rowF : RowFn)

/-- Entry (r, q) of the result: the row function of the small operands and of row r of the three feature arrays,
    all as the kernel is entered with them. -/
def hwAt (c : Dev nD) (r : Fin 100000) (q : Fin 64) : EReal :=
  rowF (V c main_arg2) (V c main_arg3) (V c main_arg4) (V c main_arg5) (V c main_arg6) (V c main_arg7) (V c main_arg8)
    (fun k => (V c main_arg0 : S100000x128.Idx → EReal) (ix2 r k))
    (fun k => (V c main_v42 : S100000x128.Idx → EReal) (ix2 r k))
    (fun k => (V c main_v58 : S100000x128.Idx → EReal) (ix2 r k)) q

/-- The result array. -/
def hwArr (c : Dev nD) : S100000x64.Idx → EReal :=
  fun i => hwAt V rowF c ⟨(i 0).val, idx2_lt0 i⟩ ⟨(i 1).val, idx2_lt1 i⟩

theorem hwArr_apply (c : Dev nD) (i : S100000x64.Idx) (r : Fin 100000) (q : Fin 64)
    (h0 : (i 0).val = r.val) (h1 : (i 1).val = q.val) : hwArr V rowF c i = hwAt V rowF c r q := by
  unfold hwArr
  have e0 : (⟨(i 0).val, idx2_lt0 i⟩ : Fin 100000) = r := Fin.ext h0
  have e1 : (⟨(i 1).val, idx2_lt1 i⟩ : Fin 64) = q := Fin.ext h1
  rw [e0, e1]

/-- The printed index maps, decided once over the grid: a row-blocked window's block index is the point's number on
    the row axis and 0 on the other; a whole operand's is 0 on every axis. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

/-! ## Each staged block read off its array -/

/-- Row p of point t's block of a row-blocked feature array is row 2000·t + p of the array. -/
theorem iblk_x (c : Dev nD) (t : Fin cfg0.N) (p : Fin 2000) (k : Fin 128) (r : Fin 100000) (hr : r.val = 2000 * t.val + p.val) :
    (iblk0 V c 0 t : S2000x128.Idx → EReal) (ix2 p k) = (V c main_arg0 : S100000x128.Idx → EReal) (ix2 r k) := by
  obtain ⟨⟨e0, e1⟩, -⟩ := idx_facts t
  unfold iblk0
  rw [View.read_apply]
  show (V c main_arg0 : S100000x128.Idx → EReal) _ = _
  refine congrArg (V c main_arg0 : S100000x128.Idx → EReal) ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

theorem iblk_t1 (c : Dev nD) (t : Fin cfg0.N) (p : Fin 2000) (k : Fin 128) (r : Fin 100000) (hr : r.val = 2000 * t.val + p.val) :
    (iblk0 V c 1 t : S2000x128.Idx → EReal) (ix2 p k) = (V c main_v42 : S100000x128.Idx → EReal) (ix2 r k) := by
  obtain ⟨-, ⟨e0, e1⟩, -⟩ := idx_facts t
  unfold iblk0
  rw [View.read_apply]
  show (V c main_v42 : S100000x128.Idx → EReal) _ = _
  refine congrArg (V c main_v42 : S100000x128.Idx → EReal) ?_
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

theorem iblk_t2 (c : Dev nD) (t : Fin cfg0.N) (p : Fin 2000) (k : Fin 128) (r : Fin 100000) (hr : r.val = 2000 * t.val + p.val) :
    (iblk0 V c 2 t : S2000x128.Idx → EReal) (ix2 p k) = (V c main_v58 : S100000x128.Idx → EReal) (ix2 r k) := by
  obtain ⟨-, -, ⟨e0, e1⟩, -⟩ := idx_facts t
  unfold iblk0
  rw [View.read_apply]
  show (V c main_v58 : S100000x128.Idx → EReal) _ = _
  refine congrArg (V c main_v58 : S100000x128.Idx → EReal) ?_
  funext a
  apply Fin.ext
  match a with
  | ⟨0, _⟩ => show win0_2.index t (0 : Fin 2) * 2000 + 1 * p.val = r.val; rw [e0, hr]; omega
  | ⟨1, _⟩ => show win0_2.index t (1 : Fin 2) * 128 + 1 * k.val = k.val; rw [e1]; omega

/-- A whole operand's block, at every point, is the operand's array. -/
theorem iblk_w (c : Dev nD) (t : Fin cfg0.N) : (iblk0 V c 3 t : S3x128x128.Idx → EReal) = V c main_arg2 := by
  obtain ⟨-, -, -, ⟨e0, e1, e2⟩, -⟩ := idx_facts t
  funext y
  unfold iblk0
  rw [View.read_apply]
  show (V c main_arg2 : S3x128x128.Idx → EReal) _ = _
  refine congrArg (V c main_arg2 : S3x128x128.Idx → EReal) ?_
  funext a
  apply Fin.ext
  match a with
  | ⟨0, _⟩ => show win0_3.index t (0 : Fin 3) * 3 + 1 * (y 0).val = (y 0).val; rw [e0]; omega
  | ⟨1, _⟩ => show win0_3.index t (1 : Fin 3) * 128 + 1 * (y 1).val = (y 1).val; rw [e1]; omega
  | ⟨2, _⟩ => show win0_3.index t (2 : Fin 3) * 128 + 1 * (y 2).val = (y 2).val; rw [e2]; omega

theorem iblk_v4 (c : Dev nD) (t : Fin cfg0.N) : (iblk0 V c 4 t : S128.Idx → EReal) = V c main_arg3 := by
  obtain ⟨-, -, -, -, e, -⟩ := idx_facts t
  funext y
  unfold iblk0
  rw [View.read_apply]
  show (V c main_arg3 : S128.Idx → EReal) _ = _
  refine congrArg (V c main_arg3 : S128.Idx → EReal) ?_
  funext a
  apply Fin.ext
  match a with
  | ⟨0, _⟩ => show win0_4.index t (0 : Fin 1) * 128 + 1 * (y 0).val = (y 0).val; rw [e]; omega

theorem iblk_v5 (c : Dev nD) (t : Fin cfg0.N) : (iblk0 V c 5 t : S128.Idx → EReal) = V c main_arg4 := by
  obtain ⟨-, -, -, -, -, e, -⟩ := idx_facts t
  funext y
  unfold iblk0
  rw [View.read_apply]
  show (V c main_arg4 : S128.Idx → EReal) _ = _
  refine congrArg (V c main_arg4 : S128.Idx → EReal) ?_
  funext a
  apply Fin.ext
  match a with
  | ⟨0, _⟩ => show win0_5.index t (0 : Fin 1) * 128 + 1 * (y 0).val = (y 0).val; rw [e]; omega

theorem iblk_v6 (c : Dev nD) (t : Fin cfg0.N) : (iblk0 V c 6 t : S128.Idx → EReal) = V c main_arg5 := by
  obtain ⟨-, -, -, -, -, -, e, -⟩ := idx_facts t
  funext y
  unfold iblk0
  rw [View.read_apply]
  show (V c main_arg5 : S128.Idx → EReal) _ = _
  refine congrArg (V c main_arg5 : S128.Idx → EReal) ?_
  funext a
  apply Fin.ext
  match a with
  | ⟨0, _⟩ => show win0_6.index t (0 : Fin 1) * 128 + 1 * (y 0).val = (y 0).val; rw [e]; omega

theorem iblk_v7 (c : Dev nD) (t : Fin cfg0.N) : (iblk0 V c 7 t : S128.Idx → EReal) = V c main_arg6 := by
  obtain ⟨-, -, -, -, -, -, -, e, -⟩ := idx_facts t
  funext y
  unfold iblk0
  rw [View.read_apply]
  show (V c main_arg6 : S128.Idx → EReal) _ = _
  refine congrArg (V c main_arg6 : S128.Idx → EReal) ?_
  funext a
  apply Fin.ext
  match a with
  | ⟨0, _⟩ => show win0_7.index t (0 : Fin 1) * 128 + 1 * (y 0).val = (y 0).val; rw [e]; omega

theorem iblk_v8 (c : Dev nD) (t : Fin cfg0.N) : (iblk0 V c 8 t : S128.Idx → EReal) = V c main_arg7 := by
  obtain ⟨-, -, -, -, -, -, -, -, e, -⟩ := idx_facts t
  funext y
  unfold iblk0
  rw [View.read_apply]
  show (V c main_arg7 : S128.Idx → EReal) _ = _
  refine congrArg (V c main_arg7 : S128.Idx → EReal) ?_
  funext a
  apply Fin.ext
  match a with
  | ⟨0, _⟩ => show win0_8.index t (0 : Fin 1) * 128 + 1 * (y 0).val = (y 0).val; rw [e]; omega

theorem iblk_gw (c : Dev nD) (t : Fin cfg0.N) : (iblk0 V c 9 t : S128x64.Idx → EReal) = V c main_arg8 := by
  obtain ⟨-, -, -, -, -, -, -, -, -, ⟨e0, e1⟩, -⟩ := idx_facts t
  funext y
  unfold iblk0
  rw [View.read_apply]
  show (V c main_arg8 : S128x64.Idx → EReal) _ = _
  refine congrArg (V c main_arg8 : S128x64.Idx → EReal) ?_
  funext a
  apply Fin.ext
  match a with
  | ⟨0, _⟩ => show win0_9.index t (0 : Fin 2) * 128 + 1 * (y 0).val = (y 0).val; rw [e0]; omega
  | ⟨1, _⟩ => show win0_9.index t (1 : Fin 2) * 64 + 1 * (y 1).val = (y 1).val; rw [e1]; omega

/-! ## What a point writes back, the cover, the array -/

/-- The body's stored block at (p, q) is the row function of row p of the staged blocks. -/
abbrev BlockLaw : Prop :=
  ∀ (x0 x1 x2 : Vec Ideal S2000x128 .f32) (x3 : Vec Ideal S3x128x128 .f32) (x4 x5 x6 x7 x8 : Vec Ideal S128 .f32)
    (x9 : Vec Ideal S128x64 .f32) (p : Fin 2000) (q : Fin 64),
    out0_10 (F := Ideal) x0 x1 x2 x3 x4 x5 x6 x7 x8 x9 (ix2 p q)
      = rowF x3 x4 x5 x6 x7 x8 x9 (fun k => x0 (ix2 p k)) (fun k => x1 (ix2 p k)) (fun k => x2 (ix2 p k)) q

/-- WHAT POINT t WRITES BACK is block t of the result array. -/
theorem flushed_eq (hblk : BlockLaw rowF) (c : Dev nD) (t : Fin cfg0.N) :
    (dat0 V c).flushed 10 t = ((cfg0.win 10).blk t).view.read (Elt Ideal) (hwArr V rowF c) := by
  obtain ⟨-, -, -, -, -, -, -, -, -, -, ⟨o0, o1⟩⟩ := idx_facts t
  have hN : cfg0.N = 50 := N_0
  have ht : t.val < 50 := hN ▸ t.isLt
  show (cfg0.win 10).cut (grid0.coords t) ((dat0 V c).after 10 t) = _
  rw [after0_10]
  funext j
  obtain ⟨p, q, rfl⟩ : ∃ (p : Fin 2000) (q : Fin 64), j = ix2 p q := ⟨j 0, j 1, eq_ix2 j⟩
  rw [View.read_apply]
  show out0_10 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (ix2 p q) = hwArr V rowF c (((cfg0.win 10).blk t).view.emb (ix2 p q))
  refine (hblk (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) p q).trans ?_
  have hp : p.val < 2000 := p.isLt
  let r : Fin 100000 := ⟨2000 * t.val + p.val, by omega⟩
  have hr : r.val = 2000 * t.val + p.val := rfl
  rw [hwArr_apply V rowF c _ r q
    (by show win0_10.index t (0 : Fin 2) * 2000 + 1 * p.val = r.val; rw [o0, hr]; omega)
    (by show win0_10.index t (1 : Fin 2) * 64 + 1 * q.val = q.val; rw [o1]; omega)]
  unfold hwAt
  rw [iblk_w V c t, iblk_v4 V c t, iblk_v5 V c t, iblk_v6 V c t, iblk_v7 V c t, iblk_v8 V c t, iblk_gw V c t,
    show (fun k => (iblk0 V c 0 t : S2000x128.Idx → EReal) (ix2 p k)) = fun k => (V c main_arg0 : S100000x128.Idx → EReal) (ix2 r k)
      from funext fun k => iblk_x V c t p k r hr,
    show (fun k => (iblk0 V c 1 t : S2000x128.Idx → EReal) (ix2 p k)) = fun k => (V c main_v42 : S100000x128.Idx → EReal) (ix2 r k)
      from funext fun k => iblk_t1 V c t p k r hr,
    show (fun k => (iblk0 V c 2 t : S2000x128.Idx → EReal) (ix2 p k)) = fun k => (V c main_v58 : S100000x128.Idx → EReal) (ix2 r k)
      from funext fun k => iblk_t2 V c t p k r hr]

/-- An index of the result array is in point t's block iff each coordinate is in the block's range on its axis. -/
theorem mem_blk (t : Fin cfg0.N) (i : S100000x64.Idx) :
    i ∈ ((cfg0.win 10).blk t).view.set ↔ ∀ a : Fin 2, win0_10.index t a * S2000x64.size a ≤ (i a).val ∧ (i a).val < win0_10.index t a * S2000x64.size a + S2000x64.size a := by
  show i ∈ ((View.whole main_v59).slice (win0_10.rect t)).set ↔ _
  rw [View.set_slice_whole, Rect.mem_set_unit]
  exact Iff.rfl

/-- Every entry of the result array lies in the block of the point its row falls in. -/
theorem cover (i : S100000x64.Idx) :
    ∃ t : Fin cfg0.N, (cfg0.win 10).flush t = true ∧ i ∈ ((cfg0.win 10).blk t).view.set := by
  have hN : cfg0.N = 50 := N_0
  have hi0 : (i 0).val < 100000 := idx2_lt0 i
  have hi1 : (i 1).val < 64 := idx2_lt1 i
  let t : Fin cfg0.N := ⟨(i 0).val / 2000, by rw [hN]; omega⟩
  have htv : t.val = (i 0).val / 2000 := rfl
  obtain ⟨-, -, -, -, -, -, -, -, -, -, ⟨o0, o1⟩⟩ := idx_facts t
  refine ⟨t, flush0_10 t, ?_⟩
  rw [mem_blk]
  intro a
  match a with
  | ⟨0, _⟩ => show win0_10.index t (0 : Fin 2) * 2000 ≤ (i 0).val ∧ (i 0).val < win0_10.index t (0 : Fin 2) * 2000 + 2000; rw [o0, htv]; omega
  | ⟨1, _⟩ => show win0_10.index t (1 : Fin 2) * 64 ≤ (i 1).val ∧ (i 1).val < win0_10.index t (1 : Fin 2) * 64 + 64; rw [o1]; omega

/-- THE ARRAY after the kernel: the row function of the entry arrays, at every entry. -/
theorem final (hblk : BlockLaw rowF) (c : Dev nD) : (dat0 V c).arrAt 10 cfg0.N = hwArr V rowF c :=
  (dat0 V c).arrAt_eq_of_cover 10 (hwArr V rowF c) (fun t _ => flushed_eq V rowF hblk c t) cover

end Cert.Bridge.Dense

end
-- ==== Proof.LsmArray.lean ====
/-
  The second pipelined kernel's output ARRAY as one function of the arrays the kernel is entered with.

  The kernel runs over 50 grid points; point t stages rows 2000·t … 2000·t + 1999 of the aggregate, of the projected
  features and of the one-column self-loop weight, the bias vector whole, and writes back rows 2000·t … 2000·t + 1999
  of its [100000, 64] result. Its body is row-local: entry (p, q) of the block it stores is a function `rowF` of row
  p of the two staged [2000, 64] blocks, of entry p of the staged column, and of the bias (the hypothesis `hblk`).
  Row p of point t's block is row 2000·t + p of the array, so what point t writes back is block t of the ONE array
  whose entry (r, q) is `rowF` of row r of the arrays; the 50 blocks tile the rows, so after the run the result
  array is that function.
-/
import proofs.«178533_j58703613002386_2_alg».proof.Proof.Gen.KernelIdeal.Frame
import Idealize.ShloMosaic.Lib.Pipeline.Value
import Idealize.ShloMosaic.Lib.ValueIdx

set_option maxRecDepth 16384

noncomputable section

namespace Cert.Bridge.Lsm

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The shape of a row function of the final stage: a row of the aggregate, a row of the projected features, the
    node's self-loop weight, the bias, an output column. -/
abbrev RowFn : Type := (Fin 64 → EReal) → (Fin 64 → EReal) → EReal → (Fin 64 → EReal) → Fin 64 → EReal

variable (rowF : RowFn)

/-- Entry (r, q) of the result: the row function of row r of the entry arrays. -/
def outAt (c : Dev nD) (r : Fin 100000) (q : Fin 64) : EReal :=
  rowF (fun q' => (V c main_v90 : S100000x64.Idx → EReal) (ix2 r q'))
    (fun q' => (V c main_v59 : S100000x64.Idx → EReal) (ix2 r q'))
    ((V c main_v92 : S100000x1.Idx → EReal) (ix2 r (0 : Fin 1)))
    (fun q' => (V c main_arg9 : S64.Idx → EReal) (ix1 q')) q

/-- The result array. -/
def outArr (c : Dev nD) : S100000x64.Idx → EReal :=
  fun i => outAt V rowF c ⟨(i 0).val, idx2_lt0 i⟩ ⟨(i 1).val, idx2_lt1 i⟩

theorem outArr_apply (c : Dev nD) (i : S100000x64.Idx) (r : Fin 100000) (q : Fin 64)
    (h0 : (i 0).val = r.val) (h1 : (i 1).val = q.val) : outArr V rowF c i = outAt V rowF c r q := by
  unfold outArr
  have e0 : (⟨(i 0).val, idx2_lt0 i⟩ : Fin 100000) = r := Fin.ext h0
  have e1 : (⟨(i 1).val, idx2_lt1 i⟩ : Fin 64) = q := Fin.ext h1
  rw [e0, e1]

/-- The printed index maps, decided once over the grid: a row-blocked window's block index is the point's number on
    the row axis and 0 on the other; the bias's is 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ win1_3.index t (0 : Fin 1) = 0
    ∧ (win1_4.index t (0 : Fin 2) = t.val ∧ win1_4.index t (1 : Fin 2) = 0) :=
  (by decide +kernel : ∀ t : Fin grid1.N, _)

/-! ## Each staged block read off its array -/

theorem iblk_agg (c : Dev nD) (t : Fin cfg1.N) (p : Fin 2000) (k : Fin 64) (r : Fin 100000) (hr : r.val = 2000 * t.val + p.val) :
    (iblk1 V c 0 t : S2000x64.Idx → EReal) (ix2 p k) = (V c main_v90 : S100000x64.Idx → EReal) (ix2 r k) := by
  obtain ⟨⟨e0, e1⟩, -⟩ := idx_facts t
  unfold iblk1
  rw [View.read_apply]
  show (V c main_v90 : S100000x64.Idx → EReal) _ = _
  refine congrArg (V c main_v90 : S100000x64.Idx → EReal) ?_
  funext a
  apply Fin.ext
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

theorem iblk_hw (c : Dev nD) (t : Fin cfg1.N) (p : Fin 2000) (k : Fin 64) (r : Fin 100000) (hr : r.val = 2000 * t.val + p.val) :
    (iblk1 V c 1 t : S2000x64.Idx → EReal) (ix2 p k) = (V c main_v59 : S100000x64.Idx → EReal) (ix2 r k) := by
  obtain ⟨-, ⟨e0, e1⟩, -⟩ := idx_facts t
  unfold iblk1
  rw [View.read_apply]
  show (V c main_v59 : S100000x64.Idx → EReal) _ = _
  refine congrArg (V c main_v59 : S100000x64.Idx → EReal) ?_
  funext a
  apply Fin.ext
  match a with
  | ⟨0, _⟩ => show win1_1.index t (0 : Fin 2) * 2000 + 1 * p.val = r.val; rw [e0, hr]; omega
  | ⟨1, _⟩ => show win1_1.index t (1 : Fin 2) * 64 + 1 * k.val = k.val; rw [e1]; omega

theorem iblk_self (c : Dev nD) (t : Fin cfg1.N) (p : Fin 2000) (r : Fin 100000) (hr : r.val = 2000 * t.val + p.val) :
    (iblk1 V c 2 t : S2000x1.Idx → EReal) (ix2 p (0 : Fin 1)) = (V c main_v92 : S100000x1.Idx → EReal) (ix2 r (0 : Fin 1)) := by
  obtain ⟨-, -, ⟨e0, e1⟩, -⟩ := idx_facts t
  unfold iblk1
  rw [View.read_apply]
  show (V c main_v92 : S100000x1.Idx → EReal) _ = _
  refine congrArg (V c main_v92 : S100000x1.Idx → EReal) ?_
  funext a
  apply Fin.ext
  match a with
  | ⟨0, _⟩ => show win1_2.index t (0 : Fin 2) * 2000 + 1 * p.val = r.val; rw [e0, hr]; omega
  | ⟨1, _⟩ => show win1_2.index t (1 : Fin 2) * 1 + 1 * 0 = 0; rw [e1]

theorem iblk_bias (c : Dev nD) (t : Fin cfg1.N) : (iblk1 V c 3 t : S64.Idx → EReal) = V c main_arg9 := by
  obtain ⟨-, -, -, e, -⟩ := idx_facts t
  funext y
  unfold iblk1
  rw [View.read_apply]
  show (V c main_arg9 : S64.Idx → EReal) _ = _
  refine congrArg (V c main_arg9 : S64.Idx → EReal) ?_
  funext a
  apply Fin.ext
  match a with
  | ⟨0, _⟩ => show win1_3.index t (0 : Fin 1) * 64 + 1 * (y 0).val = (y 0).val; rw [e]; omega

/-! ## What a point writes back, the cover, the array -/

/-- The body's stored block at (p, q) is the row function of row p of the staged blocks. -/
abbrev BlockLaw : Prop :=
  ∀ (x0 x1 : Vec Ideal S2000x64 .f32) (x2 : Vec Ideal S2000x1 .f32) (x3 : Vec Ideal S64 .f32) (p : Fin 2000) (q : Fin 64),
    out1_4 (F := Ideal) x0 x1 x2 x3 (ix2 p q)
      = rowF (fun q' => x0 (ix2 p q')) (fun q' => x1 (ix2 p q')) (x2 (ix2 p (0 : Fin 1))) (fun q' => x3 (ix1 q')) q

/-- WHAT POINT t WRITES BACK is block t of the result array. -/
theorem flushed_eq (hblk : BlockLaw rowF) (c : Dev nD) (t : Fin cfg1.N) :
    (dat1 V c).flushed 4 t = ((cfg1.win 4).blk t).view.read (Elt Ideal) (outArr V rowF c) := by
  obtain ⟨-, -, -, -, ⟨o0, o1⟩⟩ := idx_facts t
  have hN : cfg1.N = 50 := N_1
  have ht : t.val < 50 := hN ▸ t.isLt
  show (cfg1.win 4).cut (grid1.coords t) ((dat1 V c).after 4 t) = _
  rw [after1_4]
  funext j
  obtain ⟨p, q, rfl⟩ : ∃ (p : Fin 2000) (q : Fin 64), j = ix2 p q := ⟨j 0, j 1, eq_ix2 j⟩
  rw [View.read_apply]
  show out1_4 (F := Ideal) (iblk1 V c 0 t) (iblk1 V c 1 t) (iblk1 V c 2 t) (iblk1 V c 3 t) (ix2 p q)
      = outArr V rowF c (((cfg1.win 4).blk t).view.emb (ix2 p q))
  refine (hblk (iblk1 V c 0 t) (iblk1 V c 1 t) (iblk1 V c 2 t) (iblk1 V c 3 t) p q).trans ?_
  have hp : p.val < 2000 := p.isLt
  let r : Fin 100000 := ⟨2000 * t.val + p.val, by omega⟩
  have hr : r.val = 2000 * t.val + p.val := rfl
  rw [outArr_apply V rowF c _ r q
    (by show win1_4.index t (0 : Fin 2) * 2000 + 1 * p.val = r.val; rw [o0, hr]; omega)
    (by show win1_4.index t (1 : Fin 2) * 64 + 1 * q.val = q.val; rw [o1]; omega)]
  unfold outAt
  rw [iblk_self V c t p r hr,
    show (fun q' => (iblk1 V c 3 t : S64.Idx → EReal) (ix1 q')) = fun q' => (V c main_arg9 : S64.Idx → EReal) (ix1 q')
      from by rw [iblk_bias V c t],
    show (fun k => (iblk1 V c 0 t : S2000x64.Idx → EReal) (ix2 p k)) = fun k => (V c main_v90 : S100000x64.Idx → EReal) (ix2 r k)
      from funext fun k => iblk_agg V c t p k r hr,
    show (fun k => (iblk1 V c 1 t : S2000x64.Idx → EReal) (ix2 p k)) = fun k => (V c main_v59 : S100000x64.Idx → EReal) (ix2 r k)
      from funext fun k => iblk_hw V c t p k r hr]

/-- An index of the result array is in point t's block iff each coordinate is in the block's range on its axis. -/
theorem mem_blk (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v93).slice (win1_4.rect t)).set ↔ _
  rw [View.set_slice_whole, Rect.mem_set_unit]
  exact Iff.rfl

/-- Every entry of the result array lies in the block of the point its row falls in. -/
theorem cover (i : S100000x64.Idx) :
    ∃ t : Fin cfg1.N, (cfg1.win 4).flush t = true ∧ i ∈ ((cfg1.win 4).blk t).view.set := by
  have hN : cfg1.N = 50 := N_1
  have hi0 : (i 0).val < 100000 := idx2_lt0 i
  have hi1 : (i 1).val < 64 := idx2_lt1 i
  let t : Fin cfg1.N := ⟨(i 0).val / 2000, by rw [hN]; omega⟩
  have htv : t.val = (i 0).val / 2000 := rfl
  obtain ⟨-, -, -, -, ⟨o0, o1⟩⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; rw [o0, htv]; omega
  | ⟨1, _⟩ => show win1_4.index t (1 : Fin 2) * 64 ≤ (i 1).val ∧ (i 1).val < win1_4.index t (1 : Fin 2) * 64 + 64; rw [o1]; omega

/-- THE ARRAY after the kernel: the row function of the entry arrays, at every entry. -/
theorem final (hblk : BlockLaw rowF) (c : Dev nD) : (dat1 V c).arrAt 4 cfg1.N = outArr V rowF c :=
  (dat1 V c).arrAt_eq_of_cover 4 (outArr V rowF c) (fun t _ => flushed_eq V rowF hblk c t) cover

end Cert.Bridge.Lsm

end
-- ==== Proof.DenseSpec.lean ====
/-
  The dense per-node stage as a function of ONE node's three feature rows.

  For a node with feature rows r0 (the input features), r1 and r2 (the first- and second-order Chebyshev
  propagations of them), the stage computes, for each of the 128 hidden channels k,

      s k      = ((r0 · W₀)_k + (r1 · W₁)_k) + (r2 · W₂)_k          -- three 128 x 128 products, summed left to right
      hidden k = max ((((s k + b k) - mu k) * rsqrt (var k + eps)) * g k + be k) 0

  (bias, then batch normalisation with the running mean and variance, scale and shift, then the rectifier), and the
  output entry q of the node is the product of the hidden row with column q of the 128 x 64 output weights:

      rowDense q = ∑ k, hidden k * gw (k, q).

  Everything is an extended real; the two float literals (eps and the rectifier's zero) stay as the words they are
  written with, since both programs write the same words. The grouping and operand order above is the one both
  programs compute, so that each meets this function without any algebra.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Bridge

/-- Channel `k` of the product of a feature row `r` with the `c`-th 128 x 128 Chebyshev weight matrix. -/
def cheb (W : (⟨3, ![3, 128, 128]⟩ : Shape).Idx → EReal) (c : Fin 3) (r : Fin 128 → EReal) (k : Fin 128) : EReal :=
  ∑ k' : Fin 128, r k' * W (ix3 c k' k)

/-- Hidden channel `k` of one node: the three Chebyshev products summed left to right, plus the bias, normalised
    with the running statistics, scaled and shifted, and rectified. -/
def hidden (W : (⟨3, ![3, 128, 128]⟩ : Shape).Idx → EReal) (b g be mu var : (⟨1, ![128]⟩ : Shape).Idx → EReal)
    (r0 r1 r2 : Fin 128 → EReal) (k : Fin 128) : EReal :=
  max ((((((cheb W 0 r0 k + cheb W 1 r1 k) + cheb W 2 r2 k) + b (ix1 k)) - mu (ix1 k))
        * Ideal.rsqrt (var (ix1 k) + Ideal.ofBits .f32 0x3727C5AC#32)) * g (ix1 k) + be (ix1 k))
    (Ideal.ofBits .f32 0x00000000#32)

/-- Output entry `q` of one node: the hidden row times column `q` of the output weights. -/
def rowDense (W : (⟨3, ![3, 128, 128]⟩ : Shape).Idx → EReal) (b g be mu var : (⟨1, ![128]⟩ : Shape).Idx → EReal)
    (gw : (⟨2, ![128, 64]⟩ : Shape).Idx → EReal) (r0 r1 r2 : Fin 128 → EReal) (q : Fin 64) : EReal :=
  ∑ k : Fin 128, hidden W b g be mu var r0 r1 r2 k * gw (ix2 k q)

end Cert.Bridge

end
-- ==== Proof.DenseKernel.lean ====
/-
  The dense stage's kernel body, read at one entry of its output block.

  The body stores ONE value through the whole 2000 x 64 staging buffer: the product of the rectified, normalised
  hidden block with the output weights. Read at row `p` and column `q` it is `rowDense` of row `p` of the three
  feature blocks: each matrix product read at an index is the sum over the contracted coordinate, each broadcast
  of a 128-vector over the rows reads the vector at the column (the library's row-broadcast and unit-axis cast read at an index), a change of float format is the identity on the
  extended reals, and the three weight matrices are the three slabs of the 3 x 128 x 128 weight array.
-/
import proofs.«178533_j58703613002386_2_alg».proof.Proof.DenseSpec
import proofs.«178533_j58703613002386_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx Cert.KernelIdeal

namespace Cert.Bridge

/-! ## The two matrix products read at an index -/

/-- The row coordinate of the left operand's index is the output's row. -/
theorem mmH_lhs0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The column coordinate of the right operand's index is the output's column. -/
theorem mmH_rhs1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A 2000 x 128 by 128 x 128 product into the zero accumulator, at `(p, k)`: the sum over the contracted coordinate. -/
theorem matmulH_apply (l : FVec Ideal S2000x128 .bf16) (r : FVec Ideal S128x128 .bf16) (p : Fin 2000) (k : Fin 128) :
    matmul dot_S2000x128_S128x128_S2000x128_1_0_0_1_n_n none l r (constant (F := Ideal) S2000x128 .f32 0x00000000#32) (ix2 p k)
      = ∑ k' : Fin 128, l (ix2 p k') * r (ix2 k' k) := by
  simp only [matmul]
  rw [Ideal.matmul_constant_zero_apply,
    ← Equiv.sum_comp (contrEquiv1 dot_S2000x128_S128x128_S2000x128_1_0_0_1_n_n 128 rfl rfl).symm]
  refine Finset.sum_congr rfl fun k' _ => ?_
  have hk := contrEquiv1_symm_val dot_S2000x128_S128x128_S2000x128_1_0_0_1_n_n 128 rfl rfl k'
  have el : dot_S2000x128_S128x128_S2000x128_1_0_0_1_n_n.lhsIdx (ix2 p k)
      ((contrEquiv1 dot_S2000x128_S128x128_S2000x128_1_0_0_1_n_n 128 rfl rfl).symm k') = ix2 p k' :=
    funext fun a => Fin.ext (by
      match a with
      | ⟨0, _⟩ => exact mmH_lhs0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p k)
      ((contrEquiv1 dot_S2000x128_S128x128_S2000x128_1_0_0_1_n_n 128 rfl rfl).symm k') = ix2 k' k :=
    funext fun a => Fin.ext (by
      match a with
      | ⟨0, _⟩ => exact (dot_S2000x128_S128x128_S2000x128_1_0_0_1_n_n.rhsIdx_val_of_single rfl _ _).trans hk
      | ⟨1, _⟩ => exact mmH_rhs1 _ _)
  rw [el, er]

/-- The row coordinate of the left operand's index is the output's row (the output product). -/
theorem mmO_lhs0 (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- The column coordinate of the right operand's index is the output's column (the output product). -/
theorem mmO_rhs1 (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- A 2000 x 128 by 128 x 64 product into the zero accumulator, at `(p, q)`. -/
theorem matmulO_apply (l : FVec Ideal S2000x128 .bf16) (r : FVec Ideal S128x64 .bf16) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact mmO_lhs0 _ _
      | ⟨1, _⟩ => exact (dot_S2000x128_S128x64_S2000x64_1_0_0_1_n_n.lhsIdx_val_of_single rfl _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (dot_S2000x128_S128x64_S2000x64_1_0_0_1_n_n.rhsIdx_val_of_single rfl _ _).trans hk
      | ⟨1, _⟩ => exact mmO_rhs1 _ _)
  rw [el, er]

/-! ## The three weight matrices are the three slabs of the weight array -/

/-- Slab `c` of the weight array, loaded as a 1 x 128 x 128 block from offset `c` on the first axis and cast to a
    matrix, reads the weight array at `(c, k', k)`. -/
theorem slab_apply (W : Vec Ideal S3x128x128 .f32) (c : Fin 3) (off : Fin 3 → Nat) (hoff : off = ![c.val, 0, 0])
    (inb : ∀ a, off a + S1x128x128.size a ≤ S3x128x128.size a) (h : S1x128x128.ShapeCasts S128x128)
    (k' k : Fin 128) :
    shapeCast S128x128 (View.ld W (Rect.unit (s := S3x128x128) off S1x128x128.size inb)) h (ix2 k' k) = W (ix3 c k' k) := by
  subst hoff
  refine (shapeCast_1ab_ab_apply _ h k' k).trans ?_
  show W ((Rect.unit (s := S3x128x128) ![c.val, 0, 0] S1x128x128.size inb).idx (ix3 (0 : Fin 1) k' k)) = _
  refine congrArg W (funext fun a => Fin.ext ?_)
  match a with
  | ⟨0, _⟩ => show c.val + 1 * 0 = c.val; omega
  | ⟨1, _⟩ => show 0 + 1 * k'.val = k'.val; omega
  | ⟨2, _⟩ => show 0 + 1 * k.val = k.val; omega

/-- Slab 0, through the body's own rectangle. -/
theorem slab0 (W : Vec Ideal S3x128x128 .f32) (h : S1x128x128.ShapeCasts S128x128) (k' k : Fin 128) :
    shapeCast S128x128 (View.ld W Gen.r0_1 : Vec Ideal S1x128x128 .f32) h (ix2 k' k) = W (ix3 (0 : Fin 3) k' k) :=
  slab_apply W 0 _ rfl _ h k' k

/-- Slab 1. -/
theorem slab1 (W : Vec Ideal S3x128x128 .f32) (h : S1x128x128.ShapeCasts S128x128) (k' k : Fin 128) :
    shapeCast S128x128 (View.ld W Gen.r0_2 : Vec Ideal S1x128x128 .f32) h (ix2 k' k) = W (ix3 (1 : Fin 3) k' k) :=
  slab_apply W 1 _ rfl _ h k' k

/-- Slab 2. -/
theorem slab2 (W : Vec Ideal S3x128x128 .f32) (h : S1x128x128.ShapeCasts S128x128) (k' k : Fin 128) :
    shapeCast S128x128 (View.ld W Gen.r0_3 : Vec Ideal S1x128x128 .f32) h (ix2 k' k) = W (ix3 (2 : Fin 3) k' k) :=
  slab_apply W 2 _ rfl _ h k' k

/-! ## The body's two payloads at an index -/

/-- The inverse square root of a vector, at an index. -/
theorem rsqrt_apply {s : Shape} {φ : FTy} (a : FVec Ideal s φ) (i : s.Idx) : rsqrt (F := Ideal) a i = Ideal.rsqrt (a i) := rfl

set_option maxHeartbeats 400000 in
/-- The normalised pre-activation block at `(p, k)`: the three products summed left to right, plus the bias, minus
    the running mean, times the inverse standard deviation. -/
theorem pay2_apply (v0 v2 v5 : Vec Ideal S2000x128 .f32) (v8 v11 v14 : Vec Ideal S1x128x128 .f32)
    (v22 v26 v31 : Vec Ideal S128 .f32) (h : S1x128x128.ShapeCasts S128x128) (p : Fin 2000) (k : Fin 128) :
    Gen.k0_pay2 (F := Ideal) v0 v2 v5 v8 v11 v14 v22 v26 v31 (ix2 p k)
      = (((((∑ k' : Fin 128, v0 (ix2 p k') * shapeCast S128x128 v8 h (ix2 k' k))
            + (∑ k' : Fin 128, v2 (ix2 p k') * shapeCast S128x128 v11 h (ix2 k' k)))
            + (∑ k' : Fin 128, v5 (ix2 p k') * shapeCast S128x128 v14 h (ix2 k' k)))
            + v22 (ix1 k)) - v31 (ix1 k))
          * Ideal.rsqrt (v26 (ix1 k) + Ideal.ofBits .f32 0x3727C5AC#32) := by
  unfold Gen.k0_pay2
  simp only [mulf_apply, subf_apply, addf_apply, matmulH_apply, truncf_apply, shapeCast_self, rsqrt_apply,
    broadcastTo_1b_ab_apply, shapeCast_a_1a_apply, broadcast_apply]
  rfl

set_option maxHeartbeats 400000 in
/-- The stored block at `(p, q)`: the scaled, shifted and rectified hidden row times column `q` of the output weights. -/
theorem pay1_apply (v36 : FVec Ideal S2000x128 .f32) (v37 v41 : Vec Ideal S128 .f32) (v48 : Vec Ideal S128x64 .f32)
    (p : Fin 2000) (q : Fin 64) :
    Gen.k0_pay1 (F := Ideal) v36 v37 v41 v48 (ix2 p q)
      = ∑ k : Fin 128, max (v36 (ix2 p k) * v37 (ix1 k) + v41 (ix1 k)) (Ideal.ofBits .f32 0x00000000#32) * v48 (ix2 k q) := by
  unfold Gen.k0_pay1
  simp only [matmulO_apply, truncf_apply, maximumf_apply, addf_apply, mulf_apply, broadcastTo_1b_ab_apply,
    shapeCast_a_1a_apply, broadcast_apply]
  rfl

set_option maxHeartbeats 400000 in
/-- The first payload at the body's own loads of the weight array: the three products are the row function's. -/
theorem pay2_slabs (x0 x1 x2 : Vec Ideal S2000x128 .f32) (x3 : Vec Ideal S3x128x128 .f32) (b var mu : Vec Ideal S128 .f32)
    (p : Fin 2000) (k : Fin 128) :
    Gen.k0_pay2 (F := Ideal) x0 x1 x2 (View.ld x3 Gen.r0_1) (View.ld x3 Gen.r0_2) (View.ld x3 Gen.r0_3) b var mu (ix2 p k)
      = ((((cheb x3 0 (fun k' => x0 (ix2 p k')) k + cheb x3 1 (fun k' => x1 (ix2 p k')) k)
            + cheb x3 2 (fun k' => x2 (ix2 p k')) k) + b (ix1 k)) - mu (ix1 k))
          * Ideal.rsqrt (var (ix1 k) + Ideal.ofBits .f32 0x3727C5AC#32) := by
  refine (pay2_apply x0 x1 x2 _ _ _ b var mu Facts₀.shapeCasts_S1x128x128_S128x128 p k).trans ?_
  have e0 : (∑ k' : Fin 128, x0 (ix2 p k')
      * shapeCast S128x128 (View.ld x3 Gen.r0_1 : Vec Ideal S1x128x128 .f32) Facts₀.shapeCasts_S1x128x128_S128x128 (ix2 k' k))
      = cheb x3 0 (fun k' => x0 (ix2 p k')) k :=
    Finset.sum_congr rfl fun k' _ => congrArg (x0 (ix2 p k') * ·) (slab0 x3 _ k' k)
  have e1 : (∑ k' : Fin 128, x1 (ix2 p k')
      * shapeCast S128x128 (View.ld x3 Gen.r0_2 : Vec Ideal S1x128x128 .f32) Facts₀.shapeCasts_S1x128x128_S128x128 (ix2 k' k))
      = cheb x3 1 (fun k' => x1 (ix2 p k')) k :=
    Finset.sum_congr rfl fun k' _ => congrArg (x1 (ix2 p k') * ·) (slab1 x3 _ k' k)
  have e2 : (∑ k' : Fin 128, x2 (ix2 p k')
      * shapeCast S128x128 (View.ld x3 Gen.r0_3 : Vec Ideal S1x128x128 .f32) Facts₀.shapeCasts_S1x128x128_S128x128 (ix2 k' k))
      = cheb x3 2 (fun k' => x2 (ix2 p k')) k :=
    Finset.sum_congr rfl fun k' _ => congrArg (x2 (ix2 p k') * ·) (slab2 x3 _ k' k)
  exact congrArg₂ (· * ·) (congrArg₂ (· - ·) (congrArg₂ (· + ·) (congrArg₂ (· + ·) (congrArg₂ (· + ·) e0 e1) e2) rfl) rfl) rfl

/-! ## The stored block is the row function -/

theorem zeroOff1 : (![0] : Fin 1 → Nat) = fun _ => 0 := funext fun a => by fin_cases a; rfl
theorem zeroOff2 : (![0, 0] : Fin 2 → Nat) = fun _ => 0 := funext fun a => by fin_cases a <;> rfl

set_option maxHeartbeats 400000 in
/-- What the body leaves in the output window's buffer, at row `p` and column `q`, is `rowDense` of row `p` of the
    three feature blocks. -/
theorem out0_10_apply (x0 x1 x2 : Vec Ideal S2000x128 .f32) (x3 : Vec Ideal S3x128x128 .f32)
    (x4 x5 x6 x7 x8 : Vec Ideal S128 .f32) (x9 : Vec Ideal S128x64 .f32) (p : Fin 2000) (q : Fin 64) :
    Cert.KernelIdeal.Gen.out0_10 (F := Ideal) x0 x1 x2 x3 x4 x5 x6 x7 x8 x9 (ix2 p q)
      = rowDense x3 x4 x5 x6 x7 x8 x9 (fun k => x0 (ix2 p k)) (fun k => x1 (ix2 p k)) (fun k => x2 (ix2 p k)) q := by
  unfold Gen.out0_10
  rw [View.canon_unit_zero zeroOff2]
  simp only [View.ld_unit_zero (S := S2000x128) zeroOff2, View.ld_unit_zero (S := S128) zeroOff1,
    View.ld_unit_zero (S := S128x64) zeroOff2]
  rw [pay1_apply]
  unfold rowDense hidden
  refine Finset.sum_congr rfl fun k _ => ?_
  rw [pay2_slabs]

end Cert.Bridge

end
-- ==== Proof.DenseReference.lean ====
/-
  The reference's dense stage, read at one entry.

  The reference computes the same stage with whole-array operations over all 100000 nodes: three products of the
  feature arrays with the three slabs of the weight array, summed left to right, plus the bias, batch normalisation
  with the running statistics, the rectifier, and the product with the output weights. Read at node `r` and column
  `q`, each whole-array operation reads its operands at one index (a product: a sum over the contracted coordinate), so
  the entry is `rowDense` of row `r` of the three feature arrays. The two propagated feature arrays stay opaque.
-/
import proofs.«178533_j58703613002386_2_alg».proof.Proof.DenseSpec
import proofs.«178533_j58703613002386_2_alg».proof.Proof.ReadP

noncomputable section

open scoped BigOperators
open Idealize.ShloMosaic Idealize.ShloMosaic.ValueIdx Cert.ReferenceIdeal Cert.ReferenceIdeal.Read

namespace Cert.Bridge

/-! ## The five channel vectors, broadcast over the nodes -/

/-- The bias, broadcast over the nodes, at `(r, k)`. -/
theorem ref_bias (x3 : (⟨S128, .f32⟩ : BufTy).Contents (Elt Ideal)) (r : Fin 100000) (k : Fin 128) :
    val_main_v71 (F := Ideal) x3 (ix2 r k) = x3 (ix1 k) :=
  (val_main_v71_apply x3 _).trans ((val_main_v70_apply x3 _).trans
    (congrArg x3 (funext fun a => Fin.ext (by match a with | ⟨0, _⟩ => rfl))))

/-- The running mean, broadcast over the nodes, at `(r, k)`. -/
theorem ref_mean (x6 : (⟨S128, .f32⟩ : BufTy).Contents (Elt Ideal)) (r : Fin 100000) (k : Fin 128) :
    val_main_v74 (F := Ideal) x6 (ix2 r k) = x6 (ix1 k) :=
  (val_main_v74_apply x6 _).trans ((val_main_v73_apply x6 _).trans
    (congrArg x6 (funext fun a => Fin.ext (by match a with | ⟨0, _⟩ => rfl))))

/-- The scale, broadcast over the nodes, at `(r, k)`. -/
theorem ref_scale (x4 : (⟨S128, .f32⟩ : BufTy).Contents (Elt Ideal)) (r : Fin 100000) (k : Fin 128) :
    val_main_v83 (F := Ideal) x4 (ix2 r k) = x4 (ix1 k) :=
  (val_main_v83_apply x4 _).trans ((val_main_v82_apply x4 _).trans
    (congrArg x4 (funext fun a => Fin.ext (by match a with | ⟨0, _⟩ => rfl))))

/-- The shift, broadcast over the nodes, at `(r, k)`. -/
theorem ref_shift (x5 : (⟨S128, .f32⟩ : BufTy).Contents (Elt Ideal)) (r : Fin 100000) (k : Fin 128) :
    val_main_v86 (F := Ideal) x5 (ix2 r k) = x5 (ix1 k) :=
  (val_main_v86_apply x5 _).trans ((val_main_v85_apply x5 _).trans
    (congrArg x5 (funext fun a => Fin.ext (by match a with | ⟨0, _⟩ => rfl))))

/-- The inverse standard deviation, broadcast over the nodes, at `(r, k)`. -/
theorem ref_rstd (x7 : (⟨S128, .f32⟩ : BufTy).Contents (Elt Ideal)) (r : Fin 100000) (k : Fin 128) :
    val_main_v80 (F := Ideal) x7 (ix2 r k) = Ideal.rsqrt (x7 (ix1 k) + Ideal.ofBits .f32 0x3727C5AC#32) := by
  refine (val_main_v80_apply x7 _).trans ((val_main_v79_apply x7 _).trans ?_)
  have e : idx_main_v79 (idx_main_v80 (ix2 r k)) = ix1 k :=
    funext fun a => Fin.ext (by match a with | ⟨0, _⟩ => rfl)
  rw [e]
  show Ideal.rsqrt (x7 (ix1 k) + val_main_v76 (F := Ideal) (ix1 k)) = _
  rw [val_main_v76_apply]
  rfl

/-- The rectifier's zero, broadcast over the nodes, at any index. -/
theorem ref_zero (i : S100000x128.Idx) :
    val_main_call1_v0 (F := Ideal) i = Ideal.ofBits .f32 0x00000000#32 :=
  (val_main_call1_v0_apply i).trans rfl

/-! ## The three slabs of the weight array -/

/-- The first slab as a matrix, at `(k', k)`. -/
theorem ref_slab0 (x2 : (⟨S3x128x128, .f32⟩ : BufTy).Contents (Elt Ideal)) (k' k : Fin 128) :
    val_main_v31 (F := Ideal) x2 (ix2 k' k) = x2 (ix3 (0 : Fin 3) k' k) :=
  (val_main_v31_apply x2 _).trans ((val_main_v30_apply x2 _).trans
    (congrArg x2 (funext fun a => Fin.ext (by
      have hk' := k'.isLt
      have hk := k.isLt
      match a with
      | ⟨0, _⟩ => rfl
      | ⟨1, _⟩ => show (k'.val * 128 + k.val) / 128 % 128 = k'.val; omega
      | ⟨2, _⟩ => show (k'.val * 128 + k.val) % 128 = k.val; omega))))

/-- The second slab as a matrix, at `(k', k)`. -/
theorem ref_slab1 (x2 : (⟨S3x128x128, .f32⟩ : BufTy).Contents (Elt Ideal)) (k' k : Fin 128) :
    val_main_v47 (F := Ideal) x2 (ix2 k' k) = x2 (ix3 (1 : Fin 3) k' k) :=
  (val_main_v47_apply x2 _).trans ((val_main_v46_apply x2 _).trans
    (congrArg x2 (funext fun a => Fin.ext (by
      have hk' := k'.isLt
      have hk := k.isLt
      match a with
      | ⟨0, _⟩ => rfl
      | ⟨1, _⟩ => show (k'.val * 128 + k.val) / 128 % 128 = k'.val; omega
      | ⟨2, _⟩ => show (k'.val * 128 + k.val) % 128 = k.val; omega))))

/-- The third slab as a matrix, at `(k', k)`. -/
theorem ref_slab2 (x2 : (⟨S3x128x128, .f32⟩ : BufTy).Contents (Elt Ideal)) (k' k : Fin 128) :
    val_main_v67 (F := Ideal) x2 (ix2 k' k) = x2 (ix3 (2 : Fin 3) k' k) :=
  (val_main_v67_apply x2 _).trans ((val_main_v66_apply x2 _).trans
    (congrArg x2 (funext fun a => Fin.ext (by
      have hk' := k'.isLt
      have hk := k.isLt
      match a with
      | ⟨0, _⟩ => rfl
      | ⟨1, _⟩ => show (k'.val * 128 + k.val) / 128 % 128 = k'.val; omega
      | ⟨2, _⟩ => show (k'.val * 128 + k.val) % 128 = k.val; omega))))

/-! ## The three products -/

set_option maxHeartbeats 400000 in
/-- The features times the first slab, at `(r, k)`. -/
theorem ref_cheb0 (x0 : (⟨S100000x128, .f32⟩ : BufTy).Contents (Elt Ideal))
    (x2 : (⟨S3x128x128, .f32⟩ : BufTy).Contents (Elt Ideal)) (r : Fin 100000) (k : Fin 128) :
    val_main_v32 (F := Ideal) x0 x2 (ix2 r k) = cheb x2 0 (fun k' => x0 (ix2 r k')) k := by
  rw [val_main_v32_apply]
  unfold cheb
  refine Finset.sum_congr rfl fun k' _ => ?_
  have el : lidx_main_v32 (ix2 r k) k' = ix2 r k' :=
    funext fun a => Fin.ext (by match a with | ⟨0, _⟩ => rfl | ⟨1, _⟩ => rfl)
  have er : ridx_main_v32 (ix2 r k) k' = ix2 k' k :=
    funext fun a => Fin.ext (by match a with | ⟨0, _⟩ => rfl | ⟨1, _⟩ => rfl)
  rw [el, er, ref_slab0]

set_option maxHeartbeats 400000 in
/-- The first propagation times the second slab, at `(r, k)`. -/
theorem ref_cheb1 (x0 : (⟨S100000x128, .f32⟩ : BufTy).Contents (Elt Ideal))
    (x1 : (⟨S2x1600000, .i32⟩ : BufTy).Contents (Elt Ideal))
    (x2 : (⟨S3x128x128, .f32⟩ : BufTy).Contents (Elt Ideal)) (r : Fin 100000) (k : Fin 128) :
    val_main_v48 (F := Ideal) x0 x1 x2 (ix2 r k)
      = cheb x2 1 (fun k' => val_main_v45 (F := Ideal) x0 x1 (ix2 r k')) k := by
  rw [val_main_v48_apply]
  unfold cheb
  refine Finset.sum_congr rfl fun k' _ => ?_
  have el : lidx_main_v48 (ix2 r k) k' = ix2 r k' :=
    funext fun a => Fin.ext (by match a with | ⟨0, _⟩ => rfl | ⟨1, _⟩ => rfl)
  have er : ridx_main_v48 (ix2 r k) k' = ix2 k' k :=
    funext fun a => Fin.ext (by match a with | ⟨0, _⟩ => rfl | ⟨1, _⟩ => rfl)
  rw [el, er, ref_slab1]

set_option maxHeartbeats 400000 in
/-- The second propagation times the third slab, at `(r, k)`. -/
theorem ref_cheb2 (x0 : (⟨S100000x128, .f32⟩ : BufTy).Contents (Elt Ideal))
    (x1 : (⟨S2x1600000, .i32⟩ : BufTy).Contents (Elt Ideal))
    (x2 : (⟨S3x128x128, .f32⟩ : BufTy).Contents (Elt Ideal)) (r : Fin 100000) (k : Fin 128) :
    val_main_v68 (F := Ideal) x0 x1 x2 (ix2 r k)
      = cheb x2 2 (fun k' => val_main_v65 (F := Ideal) x0 x1 (ix2 r k')) k := by
  rw [val_main_v68_apply]
  unfold cheb
  refine Finset.sum_congr rfl fun k' _ => ?_
  have el : lidx_main_v68 (ix2 r k) k' = ix2 r k' :=
    funext fun a => Fin.ext (by match a with | ⟨0, _⟩ => rfl | ⟨1, _⟩ => rfl)
  have er : ridx_main_v68 (ix2 r k) k' = ix2 k' k :=
    funext fun a => Fin.ext (by match a with | ⟨0, _⟩ => rfl | ⟨1, _⟩ => rfl)
  rw [el, er, ref_slab2]

/-! ## The hidden row, and the output product -/

set_option maxHeartbeats 400000 in
/-- The rectified, normalised hidden array at `(r, k)` is the row function's hidden channel `k`. -/
theorem ref_hidden (x0 : (⟨S100000x128, .f32⟩ : BufTy).Contents (Elt Ideal))
    (x1 : (⟨S2x1600000, .i32⟩ : BufTy).Contents (Elt Ideal))
    (x2 : (⟨S3x128x128, .f32⟩ : BufTy).Contents (Elt Ideal))
    (x3 x4 x5 x6 x7 : (⟨S128, .f32⟩ : BufTy).Contents (Elt Ideal)) (r : Fin 100000) (k : Fin 128) :
    val_main_v88 (F := Ideal) x0 x1 x2 x3 x4 x5 x6 x7 (ix2 r k)
      = hidden x2 x3 x4 x5 x6 x7 (fun k' => x0 (ix2 r k')) (fun k' => val_main_v45 (F := Ideal) x0 x1 (ix2 r k'))
          (fun k' => val_main_v65 (F := Ideal) x0 x1 (ix2 r k')) k := by
  show max ((((((val_main_v32 (F := Ideal) x0 x2 (ix2 r k) + val_main_v48 (F := Ideal) x0 x1 x2 (ix2 r k))
                + val_main_v68 (F := Ideal) x0 x1 x2 (ix2 r k)) + val_main_v71 (F := Ideal) x3 (ix2 r k))
              - val_main_v74 (F := Ideal) x6 (ix2 r k)) * val_main_v80 (F := Ideal) x7 (ix2 r k))
            * val_main_v83 (F := Ideal) x4 (ix2 r k) + val_main_v86 (F := Ideal) x5 (ix2 r k))
          (val_main_call1_v0 (F := Ideal) (ix2 r k)) = _
  rw [ref_cheb0, ref_cheb1, ref_cheb2, ref_bias, ref_mean, ref_rstd, ref_scale, ref_shift, ref_zero]
  rfl

set_option maxHeartbeats 400000 in
/-- The reference's dense stage at node `r` and column `q` is `rowDense` of row `r` of the feature array and of the
    two propagated feature arrays. -/
theorem ref_hw_apply (x0 : (⟨S100000x128, .f32⟩ : BufTy).Contents (Elt Ideal))
    (x1 : (⟨S2x1600000, .i32⟩ : BufTy).Contents (Elt Ideal))
    (x2 : (⟨S3x128x128, .f32⟩ : BufTy).Contents (Elt Ideal))
    (x3 x4 x5 x6 x7 : (⟨S128, .f32⟩ : BufTy).Contents (Elt Ideal))
    (x8 : (⟨S128x64, .f32⟩ : BufTy).Contents (Elt Ideal)) (r : Fin 100000) (q : Fin 64) :
    Read.val_main_v107 (F := Ideal) x0 x1 x2 x3 x4 x5 x6 x7 x8 (ix2 r q)
      = rowDense x2 x3 x4 x5 x6 x7 x8 (fun k => x0 (ix2 r k))
          (fun k => Read.val_main_v45 (F := Ideal) x0 x1 (ix2 r k))
          (fun k => Read.val_main_v65 (F := Ideal) x0 x1 (ix2 r k)) q := by
  rw [val_main_v107_apply]
  unfold rowDense
  refine Finset.sum_congr rfl fun k _ => ?_
  have el : lidx_main_v107 (ix2 r q) k = ix2 r k :=
    funext fun a => Fin.ext (by match a with | ⟨0, _⟩ => rfl | ⟨1, _⟩ => rfl)
  have er : ridx_main_v107 (ix2 r q) k = ix2 k q :=
    funext fun a => Fin.ext (by match a with | ⟨0, _⟩ => rfl | ⟨1, _⟩ => rfl)
  rw [el, er, ref_hidden]

end Cert.Bridge

end
-- ==== Proof.LsmSpec.lean ====
/-
  The log-softmax of one row of 64 extended reals, as the finalize kernel and the reference both
  compute it: from the aggregate row `a`, the projected row `h`, the self-loop weight `s` and the
  bias row `g`, the row `z q = (a q + s * h q) + g q`; its maximum `m`, folded from the value of the
  f32 pattern of minus infinity; the shifted row `z q - m`; and the result
  `(z q - m) - log (∑ q', exp (z q' - m))`. No program is mentioned here: both programs' last stage
  is shown, elsewhere, to be this function of one row of their operands.
-/
import Idealize.ShloMosaic.PureOps.Ideal
import Idealize.ShloMosaic.PureOps.Ideal.Laws

noncomputable section

open scoped BigOperators

namespace Cert.Bridge

open Idealize.ShloMosaic

/-- The row entering the softmax: aggregate plus self-loop term, plus bias, in that grouping. -/
def lsmRow (a h : Fin 64 → EReal) (s : EReal) (g : Fin 64 → EReal) : Fin 64 → EReal :=
  fun q => (a q + s * h q) + g q

/-- A row's maximum: the fold of `max` over the 64 columns from the value of the f32 word of minus infinity. -/
def lsmMax (z : Fin 64 → EReal) : EReal :=
  (Finset.univ : Finset (Fin 64)).fold max (Ideal.ofBits .f32 0xFF800000#32) z

/-- The log-softmax of a row `z` at column `q`: the shifted entry minus the logarithm of the sum of the
    exponentials of the shifted row. -/
def lsmOf (z : Fin 64 → EReal) (q : Fin 64) : EReal :=
  (z q - lsmMax z) - Ideal.log (∑ q' : Fin 64, Ideal.exp (z q' - lsmMax z))

/-- The finalize stage on one row. -/
def rowLsm (a h : Fin 64 → EReal) (s : EReal) (g : Fin 64 → EReal) (q : Fin 64) : EReal :=
  lsmOf (lsmRow a h s g) q

/-- The fold starts from its initial value, so the maximum is at least that value: taking the maximum
    with the initial value once more changes nothing. -/
theorem lsm_max_init (z : Fin 64 → EReal) :
    max (Ideal.ofBits .f32 0xFF800000#32) (lsmMax z) = lsmMax z :=
  max_eq_right (by
    unfold lsmMax
    exact (Finset.le_fold_max (s := (Finset.univ : Finset (Fin 64))) (b := Ideal.ofBits .f32 0xFF800000#32) (f := z)
      (c := Ideal.ofBits .f32 0xFF800000#32)).2 (Or.inl le_rfl))

/-- Two rows equal column by column have the same log-softmax. -/
theorem lsmOf_congr {z z' : Fin 64 → EReal} (e : ∀ q', z q' = z' q') (q : Fin 64) : lsmOf z q = lsmOf z' q := by
  rw [show z = z' from funext e]

end Cert.Bridge

end
-- ==== Proof.LsmKernel.lean ====
/-
  The finalize kernel's stored block, read at row `p` and column `q`, is the log-softmax row function of
  row `p` of its four loaded blocks.

  The body's one stored value is: the row `z` (aggregate plus self-loop weight times projection, plus
  bias), its row maximum spread back over the block, the difference, the exponentials, their row sum,
  its logarithm spread back, and the second difference. Each step is read at the index `(p, q)`: the
  pointwise ones by definition, a column spread along the rows and a vector stood up as a column by the
  row-major position of the index, a reduction along the columns as the fold or the sum over the 64
  columns of row `p`.
-/
import proofs.«178533_j58703613002386_2_alg».proof.Proof.LsmSpec
import proofs.«178533_j58703613002386_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal

/-! ## Layout steps read at an index -/

/-- A column `[a, 1]` spread along the rows to `[a, b]` reads, at `(p, c)`, the column's entry at `p`. -/
theorem lsm_bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` stood up as a column `[a, 1]` reads, at `(p, u)`, the vector's entry at `p`: the two
    indices have the same row-major position. -/
theorem lsm_cast_col {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The two reductions along the columns -/

/-- Row `p` with column `k` put back on the reduced axis is the index `(p, k)`. -/
theorem lsm_lift (h : Shape.Reduces S2000x64 [1] S2000) (p : Fin 2000) (k : Fin 64) :
    h.lift (ix1 p) k = ix2 p k := by
  funext c; apply Fin.ext
  match c with
  | ⟨0, _⟩ => rfl
  | ⟨1, _⟩ => rfl

/-- The maximum along the columns, from the word of minus infinity, is at row `p` the row maximum. -/
theorem lsm_rowmax (Z : FVec Ideal S2000x64 .f32) (h : Shape.Reduces S2000x64 [1] S2000) (hφ : FKind.Formats .f32)
    (hacc : (0xFF800000#32 : BitVec FTy.f32.bits) = FKind.maximumf.neutral .f32 hφ) (p : Fin 2000) :
    multiReduction .maximumf [1] S2000 Z 0xFF800000#32 h hφ hacc (ix1 p) = lsmMax (fun q' => Z (ix2 p q')) :=
  (Ideal.multiReduction_maximumf_single Z _ h hφ hacc (ix1 p)).trans
    (congrArg (fun f : Fin 64 → EReal => (Finset.univ : Finset (Fin 64)).fold max (Ideal.ofBits .f32 0xFF800000#32) f)
      (funext fun k => congrArg Z (lsm_lift h p k)))

/-- The sum along the columns is at row `p` the sum over the 64 columns of that row. -/
theorem lsm_rowsum (E : FVec Ideal S2000x64 .f32) (h : Shape.Reduces S2000x64 [1] S2000) (hφ : FKind.Formats .f32)
    (hacc : (0x00000000#32 : BitVec FTy.f32.bits) = FKind.add.neutral .f32 hφ) (p : Fin 2000) :
    multiReduction .add [1] S2000 E 0x00000000#32 h hφ hacc (ix1 p) = ∑ q' : Fin 64, E (ix2 p q') :=
  (Ideal.multiReduction_add_single E _ h hφ hacc (ix1 p)).trans
    (Finset.sum_congr rfl fun k _ => congrArg E (lsm_lift h p k))

/-! ## The body's value in three named parts -/

/-- The block entering the softmax, from the four loaded blocks: aggregate, self-loop weight, projection, bias. -/
def lsmZ (v0 : Vec Ideal S2000x64 .f32) (v2 : Vec Ideal S2000x1 .f32) (v4 : Vec Ideal S2000x64 .f32)
    (v9 : Vec Ideal S64 .f32) : FVec Ideal S2000x64 .f32 :=
  addf (addf (shapeCast S2000x64 v0 Gen.shapeCasts_S2000x64_S2000x64)
      (mulf (broadcastTo S2000x64 (shapeCast S2000x1 v2 Gen.shapeCasts_S2000x1_S2000x1) Gen.broadcasts_S2000x1_S2000x64)
        (shapeCast S2000x64 v4 Gen.shapeCasts_S2000x64_S2000x64)))
    (broadcastTo S2000x64 (shapeCast S1x64 v9 Gen.shapeCasts_S64_S1x64) Gen.broadcasts_S1x64_S2000x64)

/-- A block's row maxima, spread back over the block. -/
def lsmMaxV (Z : FVec Ideal S2000x64 .f32) : FVec Ideal S2000x64 .f32 :=
  broadcastTo S2000x64
    (shapeCast S2000x1 (multiReduction .maximumf [1] S2000 Z 0xFF800000#32 Gen.reduces_S2000x64_S2000 (.inl rfl) rfl)
      Gen.shapeCasts_S2000_S2000x1)
    Gen.broadcasts_S2000x1_S2000x64

/-- The logarithms of a block's row sums, spread back over the block. -/
def lsmLseV (E : FVec Ideal S2000x64 .f32) : FVec Ideal S2000x64 .f32 :=
  broadcastTo S2000x64
    (Idealize.ShloMosaic.log
      (shapeCast S2000x1 (multiReduction .add [1] S2000 E 0x00000000#32 Gen.reduces_S2000x64_S2000 (.inl rfl) rfl)
        Gen.shapeCasts_S2000_S2000x1))
    Gen.broadcasts_S2000x1_S2000x64

/-- The body's stored value is those parts put together: the same term, with its parts named. -/
theorem lsm_pay_eq (v0 : Vec Ideal S2000x64 .f32) (v2 : Vec Ideal S2000x1 .f32) (v4 : Vec Ideal S2000x64 .f32)
    (v9 : Vec Ideal S64 .f32) :
    Gen.k1_pay1 (F := Ideal) v0 v2 v4 v9
      = subf (subf (lsmZ v0 v2 v4 v9) (lsmMaxV (lsmZ v0 v2 v4 v9)))
          (lsmLseV (Idealize.ShloMosaic.exp (subf (lsmZ v0 v2 v4 v9) (lsmMaxV (lsmZ v0 v2 v4 v9))))) := rfl

/-! ## The parts read at `(p, q)` -/

theorem lsmMaxV_apply (Z : FVec Ideal S2000x64 .f32) (p : Fin 2000) (q : Fin 64) :
    lsmMaxV Z (ix2 p q) = lsmMax (fun q' => Z (ix2 p q')) := by
  unfold lsmMaxV
  refine (lsm_bcast_col _ _ p q).trans ?_
  refine (lsm_cast_col _ _ p (0 : Fin 1)).trans ?_
  exact lsm_rowmax Z _ _ _ p

theorem lsmLseV_apply (E : FVec Ideal S2000x64 .f32) (p : Fin 2000) (q : Fin 64) :
    lsmLseV E (ix2 p q) = Ideal.log (∑ q' : Fin 64, E (ix2 p q')) := by
  unfold lsmLseV
  refine (lsm_bcast_col _ _ p q).trans ?_
  show Ideal.log (shapeCast S2000x1 _ _ (ix2 p (0 : Fin 1))) = _
  refine congrArg Ideal.log ?_
  refine (lsm_cast_col _ _ p (0 : Fin 1)).trans ?_
  exact lsm_rowsum E _ _ _ p

theorem lsmZ_apply (v0 : Vec Ideal S2000x64 .f32) (v2 : Vec Ideal S2000x1 .f32) (v4 : Vec Ideal S2000x64 .f32)
    (v9 : Vec Ideal S64 .f32) (p : Fin 2000) (q : Fin 64) :
    lsmZ v0 v2 v4 v9 (ix2 p q)
      = lsmRow (fun q' => v0 (ix2 p q')) (fun q' => v4 (ix2 p q')) (v2 (ix2 p (0 : Fin 1))) (fun q' => v9 (ix1 q')) q := by
  have e0 : shapeCast S2000x64 v0 Gen.shapeCasts_S2000x64_S2000x64 (ix2 p q) = v0 (ix2 p q) :=
    congrFun (shapeCast_self v0 _) _
  have e4 : shapeCast S2000x64 v4 Gen.shapeCasts_S2000x64_S2000x64 (ix2 p q) = v4 (ix2 p q) :=
    congrFun (shapeCast_self v4 _) _
  have e2 : broadcastTo S2000x64 (shapeCast S2000x1 v2 Gen.shapeCasts_S2000x1_S2000x1) Gen.broadcasts_S2000x1_S2000x64 (ix2 p q)
      = v2 (ix2 p (0 : Fin 1)) :=
    (lsm_bcast_col _ _ p q).trans (congrFun (shapeCast_self v2 _) _)
  have e9 : broadcastTo S2000x64 (shapeCast S1x64 v9 Gen.shapeCasts_S64_S1x64) Gen.broadcasts_S1x64_S2000x64 (ix2 p q)
      = v9 (ix1 q) :=
    (broadcastTo_1b_ab_apply _ _ p q).trans (shapeCast_a_1a_apply _ _ (0 : Fin 1) q)
  exact congrArg₂ (fun s t : EReal => s + t) (congrArg₂ (fun s t : EReal => s + t) e0 (congrArg₂ (fun s t : EReal => s * t) e2 e4)) e9

/-- The body's stored value at `(p, q)` is the log-softmax of row `p` of the block entering it. -/
theorem lsm_pay_apply (v0 : Vec Ideal S2000x64 .f32) (v2 : Vec Ideal S2000x1 .f32) (v4 : Vec Ideal S2000x64 .f32)
    (v9 : Vec Ideal S64 .f32) (p : Fin 2000) (q : Fin 64) :
    Gen.k1_pay1 (F := Ideal) v0 v2 v4 v9 (ix2 p q) = lsmOf (fun q' => lsmZ v0 v2 v4 v9 (ix2 p q')) q := by
  refine (congrFun (lsm_pay_eq v0 v2 v4 v9) (ix2 p q)).trans ?_
  generalize lsmZ v0 v2 v4 v9 = Z
  show (Z (ix2 p q) - lsmMaxV Z (ix2 p q))
      - lsmLseV (Idealize.ShloMosaic.exp (subf Z (lsmMaxV Z))) (ix2 p q) = _
  rw [lsmLseV_apply, lsmMaxV_apply]
  unfold lsmOf
  refine congrArg (fun t : EReal => (Z (ix2 p q) - lsmMax (fun q' => Z (ix2 p q'))) - Ideal.log t) ?_
  refine Finset.sum_congr rfl fun k _ => ?_
  show Ideal.exp (Z (ix2 p k) - lsmMaxV Z (ix2 p k)) = _
  rw [lsmMaxV_apply]

/-! ## The stored block -/

/-- The finalize kernel's output block at `(p, q)`, from its loaded blocks (aggregate `x0`, projection `x1`,
    self-loop weight `x2`, bias `x3`), is the row function of row `p`. -/
theorem out1_4_apply (x0 x1 : Vec Ideal S2000x64 .f32) (x2 : Vec Ideal S2000x1 .f32) (x3 : Vec Ideal S64 .f32)
    (p : Fin 2000) (q : Fin 64) :
    Cert.KernelIdeal.Gen.out1_4 (F := Ideal) x0 x1 x2 x3 (ix2 p q)
      = rowLsm (fun q' => x0 (ix2 p q')) (fun q' => x1 (ix2 p q')) (x2 (ix2 p (0 : Fin 1))) (fun q' => x3 (ix1 q')) q := by
  have hz2 : (![0, 0] : Fin 2 → Nat) = fun _ => 0 := funext fun a => by fin_cases a <;> rfl
  have hz1 : (![0] : Fin 1 → Nat) = fun _ => 0 := funext fun a => by fin_cases a <;> rfl
  unfold Gen.out1_4
  rw [View.canon_unit_zero hz2]
  simp only [View.ld_unit_zero (S := S2000x64) hz2, View.ld_unit_zero (S := S2000x1) hz2,
    View.ld_unit_zero (S := S64) hz1]
  refine (lsm_pay_apply x0 x2 x1 x3 p q).trans ?_
  unfold rowLsm
  exact lsmOf_congr (fun q' => lsmZ_apply x0 x2 x1 x3 p q') q

end Cert.Bridge

end
-- ==== Proof.LsmReference.lean ====
/-
  The reference's last stage, read at row `r` and column `q`, is the log-softmax row function of row `r`
  of three of its earlier stages (the scattered aggregate, the projection, the self-loop weight) and of
  the bias.

  The reference adds the self-loop term and the bias to the aggregate, takes each row's maximum by a
  reduction started from minus infinity and then once more the maximum with minus infinity, subtracts
  it, exponentiates, sums each row from zero, takes the logarithm and subtracts. Each operation is read
  at an index from its operands at an index; the broadcasts' index maps at `(r, q)` are the row `r`, the
  column `q` or the unit column; the reduction over the columns is the fold over the 64 columns of row
  `r`; the second maximum with the fold's own starting value changes nothing; the sum from zero is the
  sum. The three earlier stages are never opened.
-/
import proofs.«178533_j58703613002386_2_alg».proof.Proof.LsmSpec
import proofs.«178533_j58703613002386_2_alg».proof.Proof.ReadP
import Idealize.ShloMosaic.Lib.ValueIdx
import Idealize.ShloMosaic.PureOps.Ideal.Laws
import Idealize.ShloMosaic.PureOps.Reduce

noncomputable section

open scoped BigOperators

namespace Cert.Bridge

open Idealize.ShloMosaic Idealize.ShloMosaic.ValueIdx Cert.ReferenceIdeal Cert.ReferenceIdeal.Read

/-! ## The reduction over the columns -/

/-- Row `r` with column `k` put back on the reduced axis is the index `(r, k)`. -/
theorem lsm_ref_lift (h : Shape.Reduces S100000x64 [1] S100000) (r : Fin 100000) (k : Fin 64) :
    h.lift (ix1 r) k = ix2 r k := by
  funext c; apply Fin.ext
  match c with
  | ⟨0, _⟩ => rfl
  | ⟨1, _⟩ => rfl

/-- A maximum-reduction over the columns, started from the word of minus infinity, is at row `r` the row
    maximum. -/
theorem lsm_ref_rowmax (Y : FVec Ideal S100000x64 .f32) (init : S_.Idx → Ideal .f32)
    (hinit : ∀ i, init i = Ideal.ofBits .f32 0xFF800000#32) (h' : S100000x64.ReducesTo [1] S100000)
    (hu : 0 < S_.numel) (r : Fin 100000) :
    Host.reduce (FloatOps.maximumf (F := Ideal) (φ := .f32)) Y init h' hu (ix1 r) = lsmMax (fun q' => Y (ix2 r q')) := by
  have h : Shape.Reduces S100000x64 [1] S100000 := by decide
  refine (Host.reduce_eq_fold_single (FloatOps.maximumf (F := Ideal) (φ := .f32)) Y init h' h hu (ix1 r)).trans ?_
  rw [hinit]
  exact congrArg
    (fun f : Fin 64 → EReal => (Finset.univ : Finset (Fin 64)).fold max (Ideal.ofBits .f32 0xFF800000#32) f)
    (funext fun k => congrArg Y (lsm_ref_lift h r k))

variable (x0 : (⟨S100000x128, .f32⟩ : BufTy).Contents (Elt Ideal)) (x1 : (⟨S2x1600000, .i32⟩ : BufTy).Contents (Elt Ideal))
  (x2 : (⟨S3x128x128, .f32⟩ : BufTy).Contents (Elt Ideal)) (x3 x4 x5 x6 x7 : (⟨S128, .f32⟩ : BufTy).Contents (Elt Ideal))
  (x8 : (⟨S128x64, .f32⟩ : BufTy).Contents (Elt Ideal)) (x9 : (⟨S64, .f32⟩ : BufTy).Contents (Elt Ideal))

/-! ## The row entering the softmax -/

/-- Aggregate plus self-loop weight times projection, plus bias, at `(r, q)`. -/
theorem lsm_ref_z (r : Fin 100000) (q : Fin 64) :
    val_main_v128 (F := Ideal) x0 x1 x2 x3 x4 x5 x6 x7 x8 x9 (ix2 r q)
      = lsmRow (fun q' => val_main_v120 (F := Ideal) x0 x1 x2 x3 x4 x5 x6 x7 x8 (ix2 r q'))
          (fun q' => val_main_v107 (F := Ideal) x0 x1 x2 x3 x4 x5 x6 x7 x8 (ix2 r q'))
          (val_main_v122 (F := Ideal) x1 (ix2 r (0 : Fin 1))) (fun q' => x9 (ix1 q')) q := by
  have e123 : val_main_v123 (F := Ideal) x1 (ix2 r q) = val_main_v122 (F := Ideal) x1 (ix2 r (0 : Fin 1)) :=
    (val_main_v123_apply x1 (ix2 r q)).trans (congrArg (val_main_v122 (F := Ideal) x1)
      (funext fun a => Fin.ext (by match a with | ⟨0, _⟩ => rfl | ⟨1, _⟩ => rfl)))
  have e127 : val_main_v127 (F := Ideal) x9 (ix2 r q) = x9 (ix1 q) :=
    (val_main_v127_apply x9 (ix2 r q)).trans ((val_main_v126_apply x9 _).trans (congrArg x9
      (funext fun a => Fin.ext (by match a with | ⟨0, _⟩ => rfl))))
  rw [val_main_v128_apply, val_main_v125_apply, val_main_v124_apply, e123, e127]
  rfl

/-! ## The row maximum -/

theorem lsm_ref_v0 (r : Fin 100000) :
    val_main_call2_v0 (F := Ideal) x0 x1 x2 x3 x4 x5 x6 x7 x8 x9 (ix1 r) = lsmMax (fun q' => val_main_v128 (F := Ideal) x0 x1 x2 x3 x4 x5 x6 x7 x8 x9 (ix2 r q')) := by
  unfold val_main_call2_v0
  exact lsm_ref_rowmax _ _ (fun _ => rfl) _ _ r

/-- The maximum of minus infinity with the row maximum is the row maximum. -/
theorem lsm_ref_max (r : Fin 100000) :
    val_main_call2_v2 (F := Ideal) x0 x1 x2 x3 x4 x5 x6 x7 x8 x9 (ix1 r) = lsmMax (fun q' => val_main_v128 (F := Ideal) x0 x1 x2 x3 x4 x5 x6 x7 x8 x9 (ix2 r q')) := by
  rw [val_main_call2_v2_apply, lsm_ref_v0, val_main_call2_v1_apply, val_main_call2_cst_0_apply]
  exact lsm_max_init _

/-! ## The shifted row, and the logarithm of the sum of its exponentials -/

theorem lsm_ref_shift (r : Fin 100000) (q : Fin 64) :
    val_main_call2_v5 (F := Ideal) x0 x1 x2 x3 x4 x5 x6 x7 x8 x9 (ix2 r q)
      = val_main_v128 (F := Ideal) x0 x1 x2 x3 x4 x5 x6 x7 x8 x9 (ix2 r q) - lsmMax (fun q' => val_main_v128 (F := Ideal) x0 x1 x2 x3 x4 x5 x6 x7 x8 x9 (ix2 r q')) := by
  rw [val_main_call2_v5_apply, val_main_call2_v4_apply, val_main_call2_v3_apply]
  rw [show idx_main_call2_v3 (idx_main_call2_v4 (ix2 r q)) = ix1 r from
    funext fun a => Fin.ext (by match a with | ⟨0, _⟩ => rfl)]
  rw [lsm_ref_max]
  rfl

theorem lsm_ref_lse (r : Fin 100000) (q : Fin 64) :
    val_main_call2_v10 (F := Ideal) x0 x1 x2 x3 x4 x5 x6 x7 x8 x9 (ix2 r q)
      = Ideal.log (∑ k : Fin 64, Ideal.exp (val_main_v128 (F := Ideal) x0 x1 x2 x3 x4 x5 x6 x7 x8 x9 (ix2 r k) - lsmMax (fun q' => val_main_v128 (F := Ideal) x0 x1 x2 x3 x4 x5 x6 x7 x8 x9 (ix2 r q')))) := by
  rw [val_main_call2_v10_apply, val_main_call2_v9_apply, val_main_call2_v8_apply]
  rw [show idx_main_call2_v8 (idx_main_call2_v10 (ix2 r q)) = ix1 r from
    funext fun a => Fin.ext (by match a with | ⟨0, _⟩ => rfl)]
  rw [val_main_call2_v7_apply, val_main_call2_cst_1_apply, Ideal.hostUnary_log_def, Ideal.ofBits_def,
    Ideal.ofBits_zero_f32, zero_add]
  refine congrArg Ideal.log (Finset.sum_congr rfl fun k _ => ?_)
  rw [val_main_call2_v6_apply, Ideal.hostUnary_exp_def]
  rw [show idx_main_call2_v7 (ix1 r) k = ix2 r k from
    funext fun a => Fin.ext (by match a with | ⟨0, _⟩ => rfl | ⟨1, _⟩ => rfl)]
  rw [lsm_ref_shift]

/-! ## The last stage -/

/-- The reference's result at `(r, q)` is the row function of row `r` of the aggregate stage, the projection
    stage, the self-loop weight stage and the bias. -/
theorem ref_out_apply (r : Fin 100000) (q : Fin 64) :
    Read.val_main_v129 (F := Ideal) x0 x1 x2 x3 x4 x5 x6 x7 x8 x9 (ix2 r q)
      = rowLsm (fun q' => Read.val_main_v120 (F := Ideal) x0 x1 x2 x3 x4 x5 x6 x7 x8 (ix2 r q'))
          (fun q' => Read.val_main_v107 (F := Ideal) x0 x1 x2 x3 x4 x5 x6 x7 x8 (ix2 r q'))
          (Read.val_main_v122 (F := Ideal) x1 (ix2 r (0 : Fin 1)))
          (fun q' => x9 (ix1 q')) q := by
  have hz : (fun q' => val_main_v128 (F := Ideal) x0 x1 x2 x3 x4 x5 x6 x7 x8 x9 (ix2 r q'))
      = lsmRow (fun q' => val_main_v120 (F := Ideal) x0 x1 x2 x3 x4 x5 x6 x7 x8 (ix2 r q'))
          (fun q' => val_main_v107 (F := Ideal) x0 x1 x2 x3 x4 x5 x6 x7 x8 (ix2 r q'))
          (val_main_v122 (F := Ideal) x1 (ix2 r (0 : Fin 1))) (fun q' => x9 (ix1 q')) :=
    funext fun q' => lsm_ref_z x0 x1 x2 x3 x4 x5 x6 x7 x8 x9 r q'
  rw [val_main_v129_apply, lsm_ref_shift, lsm_ref_lse]
  unfold rowLsm
  rw [← hz]
  rfl

end Cert.Bridge

end
-- ==== Proof.GlueBefore.lean ====
/-
  The host operations that run before the first kernel, read at the buffers later code uses.

  Before the first kernel the program splits the edge list into its source and destination rows, counts
  each node's incoming edges by a scatter-add of ones, and goes on to the normalised propagation weights
  and the two propagated feature arrays. The reference applies the same operations, in the same order, to
  the same operands. So the contents these stretches leave in a buffer, written out as the composition of
  the operations that produced it from the launch arguments, is the reference's corresponding stage as a
  function of the same arguments: the two are one term. An argument's buffer is written by none of the
  operations, and is entered as launched.
-/
import proofs.«178533_j58703613002386_2_alg».proof.Proof.Gen.KernelIdeal.Frame
import proofs.«178533_j58703613002386_2_alg».proof.Proof.ReadP
import proofs.«178533_j58703613002386_2_alg».proof.Proof.LibTypedBuf
import Idealize.ShloMosaic.PureOps.Ideal

set_option maxRecDepth 16384

noncomputable section

namespace Cert.Bridge.GlueBefore

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- A buffer none of a stretch's operations writes is unchanged by the stretch: each operation's one written
    buffer is another reference. -/
local macro "not_written " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

set_option maxHeartbeats 8000000 in
/-- The edges' source row, flattened: the reference's stage of the same name. -/
theorem src_eq (c : Dev nD) :
    W3 m ρ c (Proc.devRef .tc main_v1) = Cert.ReferenceIdeal.Read.val_main_v1 (F := Ideal) (m ((c.tc : Thread nD τ).loc main_arg1)) := by
  show StableHlo.after hostOps0_2 (StableHlo.after hostOps0_1 (StableHlo.after hostOps0 (W0 m ρ c))) (Proc.devRef .tc main_v1) = _
  after_results_simp
  try simp only [TRef.ofBuf_toBuf]
  rfl

set_option maxHeartbeats 8000000 in
/-- The edges' destination row, flattened. -/
theorem dst_eq (c : Dev nD) :
    W3 m ρ c (Proc.devRef .tc main_v3) = Cert.ReferenceIdeal.Read.val_main_v3 (F := Ideal) (m ((c.tc : Thread nD τ).loc main_arg1)) := by
  show StableHlo.after hostOps0_2 (StableHlo.after hostOps0_1 (StableHlo.after hostOps0 (W0 m ρ c))) (Proc.devRef .tc main_v3) = _
  after_results_simp
  try simp only [TRef.ofBuf_toBuf]
  rfl

set_option maxHeartbeats 8000000 in
/-- The in-degree: ones scattered and added at the destinations. -/
theorem deg_eq (c : Dev nD) :
    W3 m ρ c (Proc.devRef .tc main_v7) = Cert.ReferenceIdeal.Read.val_main_v7 (F := Ideal) (m ((c.tc : Thread nD τ).loc main_arg1)) := by
  show StableHlo.after hostOps0_2 (StableHlo.after hostOps0_1 (StableHlo.after hostOps0 (W0 m ρ c))) (Proc.devRef .tc main_v7) = _
  after_results_simp
  try simp only [TRef.ofBuf_toBuf]
  rfl

set_option maxHeartbeats 8000000 in
/-- No host operation before the first kernel writes argument 0: it is entered as launched. -/
theorem arg0_kept (c : Dev nD) :
    W3 m ρ c (Proc.devRef .tc main_arg0) = m ((c.tc : Thread nD τ).loc main_arg0) :=
  calc W3 m ρ c (Proc.devRef .tc main_arg0)
    _ = W2 m ρ c (Proc.devRef .tc main_arg0) := by not_written hostOps0_2
    _ = W1 m ρ c (Proc.devRef .tc main_arg0) := by not_written hostOps0_1
    _ = W0 m ρ c (Proc.devRef .tc main_arg0) := by not_written hostOps0
    _ = m ((c.tc : Thread nD τ).loc main_arg0) := rfl

set_option maxHeartbeats 8000000 in
/-- No host operation before the first kernel writes argument 2: it is entered as launched. -/
theorem arg2_kept (c : Dev nD) :
    W3 m ρ c (Proc.devRef .tc main_arg2) = m ((c.tc : Thread nD τ).loc main_arg2) :=
  calc W3 m ρ c (Proc.devRef .tc main_arg2)
    _ = W2 m ρ c (Proc.devRef .tc main_arg2) := by not_written hostOps0_2
    _ = W1 m ρ c (Proc.devRef .tc main_arg2) := by not_written hostOps0_1
    _ = W0 m ρ c (Proc.devRef .tc main_arg2) := by not_written hostOps0
    _ = m ((c.tc : Thread nD τ).loc main_arg2) := rfl

set_option maxHeartbeats 8000000 in
/-- No host operation before the first kernel writes argument 3: it is entered as launched. -/
theorem arg3_kept (c : Dev nD) :
    W3 m ρ c (Proc.devRef .tc main_arg3) = m ((c.tc : Thread nD τ).loc main_arg3) :=
  calc W3 m ρ c (Proc.devRef .tc main_arg3)
    _ = W2 m ρ c (Proc.devRef .tc main_arg3) := by not_written hostOps0_2
    _ = W1 m ρ c (Proc.devRef .tc main_arg3) := by not_written hostOps0_1
    _ = W0 m ρ c (Proc.devRef .tc main_arg3) := by not_written hostOps0
    _ = m ((c.tc : Thread nD τ).loc main_arg3) := rfl

set_option maxHeartbeats 8000000 in
/-- No host operation before the first kernel writes argument 4: it is entered as launched. -/
theorem arg4_kept (c : Dev nD) :
    W3 m ρ c (Proc.devRef .tc main_arg4) = m ((c.tc : Thread nD τ).loc main_arg4) :=
  calc W3 m ρ c (Proc.devRef .tc main_arg4)
    _ = W2 m ρ c (Proc.devRef .tc main_arg4) := by not_written hostOps0_2
    _ = W1 m ρ c (Proc.devRef .tc main_arg4) := by not_written hostOps0_1
    _ = W0 m ρ c (Proc.devRef .tc main_arg4) := by not_written hostOps0
    _ = m ((c.tc : Thread nD τ).loc main_arg4) := rfl

set_option maxHeartbeats 8000000 in
/-- No host operation before the first kernel writes argument 5: it is entered as launched. -/
theorem arg5_kept (c : Dev nD) :
    W3 m ρ c (Proc.devRef .tc main_arg5) = m ((c.tc : Thread nD τ).loc main_arg5) :=
  calc W3 m ρ c (Proc.devRef .tc main_arg5)
    _ = W2 m ρ c (Proc.devRef .tc main_arg5) := by not_written hostOps0_2
    _ = W1 m ρ c (Proc.devRef .tc main_arg5) := by not_written hostOps0_1
    _ = W0 m ρ c (Proc.devRef .tc main_arg5) := by not_written hostOps0
    _ = m ((c.tc : Thread nD τ).loc main_arg5) := rfl

set_option maxHeartbeats 8000000 in
/-- No host operation before the first kernel writes argument 6: it is entered as launched. -/
theorem arg6_kept (c : Dev nD) :
    W3 m ρ c (Proc.devRef .tc main_arg6) = m ((c.tc : Thread nD τ).loc main_arg6) :=
  calc W3 m ρ c (Proc.devRef .tc main_arg6)
    _ = W2 m ρ c (Proc.devRef .tc main_arg6) := by not_written hostOps0_2
    _ = W1 m ρ c (Proc.devRef .tc main_arg6) := by not_written hostOps0_1
    _ = W0 m ρ c (Proc.devRef .tc main_arg6) := by not_written hostOps0
    _ = m ((c.tc : Thread nD τ).loc main_arg6) := rfl

set_option maxHeartbeats 8000000 in
/-- No host operation before the first kernel writes argument 7: it is entered as launched. -/
theorem arg7_kept (c : Dev nD) :
    W3 m ρ c (Proc.devRef .tc main_arg7) = m ((c.tc : Thread nD τ).loc main_arg7) :=
  calc W3 m ρ c (Proc.devRef .tc main_arg7)
    _ = W2 m ρ c (Proc.devRef .tc main_arg7) := by not_written hostOps0_2
    _ = W1 m ρ c (Proc.devRef .tc main_arg7) := by not_written hostOps0_1
    _ = W0 m ρ c (Proc.devRef .tc main_arg7) := by not_written hostOps0
    _ = m ((c.tc : Thread nD τ).loc main_arg7) := rfl

set_option maxHeartbeats 8000000 in
/-- No host operation before the first kernel writes argument 8: it is entered as launched. -/
theorem arg8_kept (c : Dev nD) :
    W3 m ρ c (Proc.devRef .tc main_arg8) = m ((c.tc : Thread nD τ).loc main_arg8) :=
  calc W3 m ρ c (Proc.devRef .tc main_arg8)
    _ = W2 m ρ c (Proc.devRef .tc main_arg8) := by not_written hostOps0_2
    _ = W1 m ρ c (Proc.devRef .tc main_arg8) := by not_written hostOps0_1
    _ = W0 m ρ c (Proc.devRef .tc main_arg8) := by not_written hostOps0
    _ = m ((c.tc : Thread nD τ).loc main_arg8) := rfl

set_option maxHeartbeats 8000000 in
/-- No host operation before the first kernel writes argument 9: it is entered as launched. -/
theorem arg9_kept (c : Dev nD) :
    W3 m ρ c (Proc.devRef .tc main_arg9) = m ((c.tc : Thread nD τ).loc main_arg9) :=
  calc W3 m ρ c (Proc.devRef .tc main_arg9)
    _ = W2 m ρ c (Proc.devRef .tc main_arg9) := by not_written hostOps0_2
    _ = W1 m ρ c (Proc.devRef .tc main_arg9) := by not_written hostOps0_1
    _ = W0 m ρ c (Proc.devRef .tc main_arg9) := by not_written hostOps0
    _ = m ((c.tc : Thread nD τ).loc main_arg9) := rfl

end Cert.Bridge.GlueBefore

end
-- ==== Proof.GlueBefore2.lean ====
/-
  The two propagated feature arrays the first kernel reads, as the reference's stages.

  The first propagation scatters, at each edge's destination, the source node's features times the edge's
  normalised weight; the second does the same to the first's result, doubles it and subtracts the input
  features. The program and the reference build both from the launch arguments by the same operations in
  the same order, so each buffer's contents, written out as that composition, is the reference's stage: one
  term, compared without evaluating any gather or scatter.
-/
import proofs.«178533_j58703613002386_2_alg».proof.Proof.Gen.KernelIdeal.Frame
import proofs.«178533_j58703613002386_2_alg».proof.Proof.ReadP
import proofs.«178533_j58703613002386_2_alg».proof.Proof.LibTypedBuf
import Idealize.ShloMosaic.PureOps.Ideal

set_option maxRecDepth 16384

noncomputable section

namespace Cert.Bridge.GlueBefore

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-! ## The one called function's buffers

The `where` of the degree normalisation is a called function: its operands and its result are moved between
their buffers' types and the values' types. At these literal references the two types are the same by
computation, so the moves change nothing. -/

theorem ofBuf_v9 (v : (⟨S100000, .i1⟩ : BufTy).Contents (Elt Ideal)) :
    (TRef.of main_v9 : TRef sig ⟨S100000, .i1⟩).ofBuf (Val := Elt Ideal) v = v :=
  TRef.ofBuf_eq_of_heq (Val := Elt Ideal) (TRef.of main_v9 : TRef sig ⟨S100000, .i1⟩) v v HEq.rfl
theorem ofBuf_v12 (v : (⟨S100000, .f32⟩ : BufTy).Contents (Elt Ideal)) :
    (TRef.of main_v12 : TRef sig ⟨S100000, .f32⟩).ofBuf (Val := Elt Ideal) v = v :=
  TRef.ofBuf_eq_of_heq (Val := Elt Ideal) (TRef.of main_v12 : TRef sig ⟨S100000, .f32⟩) v v HEq.rfl
theorem ofBuf_cst3 (v : (⟨S_, .f32⟩ : BufTy).Contents (Elt Ideal)) :
    (TRef.of main_cst_3 : TRef sig ⟨S_, .f32⟩).ofBuf (Val := Elt Ideal) v = v :=
  TRef.ofBuf_eq_of_heq (Val := Elt Ideal) (TRef.of main_cst_3 : TRef sig ⟨S_, .f32⟩) v v HEq.rfl
theorem toBuf_v13 (v : (⟨S100000, .f32⟩ : BufTy).Contents (Elt Ideal)) :
    (TRef.of main_v13 : TRef sig ⟨S100000, .f32⟩).toBuf (Val := Elt Ideal) v = v :=
  TRef.toBuf_eq_of_heq (Val := Elt Ideal) (TRef.of main_v13 : TRef sig ⟨S100000, .f32⟩) v v HEq.rfl

set_option maxHeartbeats 8000000 in
/-- The first propagated feature array. -/
theorem tx1_eq (c : Dev nD) :
    W3 m ρ c (Proc.devRef .tc main_v42) = Cert.ReferenceIdeal.Read.val_main_v45 (F := Ideal) (m ((c.tc : Thread nD τ).loc main_arg0)) (m ((c.tc : Thread nD τ).loc main_arg1)) := by
  show StableHlo.after hostOps0_2 (StableHlo.after hostOps0_1 (StableHlo.after hostOps0 (W0 m ρ c))) (Proc.devRef .tc main_v42) = _
  after_results_simp
  simp only [TRef.ofBuf_toBuf]
  simp only [ofBuf_v9, ofBuf_v12, ofBuf_cst3, toBuf_v13]
  rfl

set_option maxHeartbeats 8000000 in
/-- The second propagated feature array: twice the propagation of the first, minus the input. -/
theorem tx2_eq (c : Dev nD) :
    W3 m ρ c (Proc.devRef .tc main_v58) = Cert.ReferenceIdeal.Read.val_main_v65 (F := Ideal) (m ((c.tc : Thread nD τ).loc main_arg0)) (m ((c.tc : Thread nD τ).loc main_arg1)) := by
  show StableHlo.after hostOps0_2 (StableHlo.after hostOps0_1 (StableHlo.after hostOps0 (W0 m ρ c))) (Proc.devRef .tc main_v58) = _
  after_results_simp
  simp only [TRef.ofBuf_toBuf]
  simp only [ofBuf_v9, ofBuf_v12, ofBuf_cst3, toBuf_v13]
  rfl

end Cert.Bridge.GlueBefore

end
-- ==== Proof.GlueAfter.lean ====
/-
  The host operations between the two kernels, read at the buffers the second kernel loads.

  Between the kernels the program computes, with whole-array operations, the symmetric normalisation of the graph with
  self loops: the degrees plus one, their inverse square roots, the edge weights (the product of the two end nodes'
  inverse square roots), the weighted sum over each node's incoming edges of the source nodes' dense rows, and the self
  weight (the squared inverse square root, as a column). The reference applies the SAME operations in the same order to
  its own earlier stages. So once the buffers these operations read hold the reference's stages, the buffers they write
  hold the reference's later stages: the two composed terms are the same tree of operations, and no gather or
  scatter-add is ever opened. The operations write neither the first kernel's output nor the output bias.
-/
import proofs.«178533_j58703613002386_2_alg».proof.Proof.Gen.KernelIdeal.Frame
import proofs.«178533_j58703613002386_2_alg».proof.Proof.ReadP
import proofs.«178533_j58703613002386_2_alg».proof.Proof.LibTypedBuf
import Idealize.ShloMosaic.PureOps.Ideal

set_option maxRecDepth 16384

noncomputable section

open Cert.KernelIdeal Cert.KernelIdeal.Gen Idealize.ShloMosaic Idealize.ShloMosaic.TcCoe Idealize.SL.Sem
open Idealize.ShloMosaic.StableHlo

namespace Cert.Bridge.GlueAfter

variable (m : (ℓ : Loc nD τ sig) → Buf (Elt Ideal) ℓ) (ρ : Dev nD → PrngReg)

set_option maxHeartbeats 4000000 in
/-- The weighted sum over incoming edges, as the second kernel finds it, is the reference's. -/
theorem agg_eq (c : Dev nD)
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S3x128x128, .f32⟩ : BufTy).Contents (Elt Ideal))
    (x3 x4 x5 x6 x7 : (⟨Cert.ReferenceIdeal.S128, .f32⟩ : BufTy).Contents (Elt Ideal))
    (x8 : (⟨Cert.ReferenceIdeal.S128x64, .f32⟩ : BufTy).Contents (Elt Ideal))
    (h59 : W4 m ρ c (Proc.devRef .tc main_v59) = Cert.ReferenceIdeal.Read.val_main_v107 (F := Ideal) x0 x1 x2 x3 x4 x5 x6 x7 x8)
    (h7 : W4 m ρ c (Proc.devRef .tc main_v7) = Cert.ReferenceIdeal.Read.val_main_v7 (F := Ideal) x1)
    (h1 : W4 m ρ c (Proc.devRef .tc main_v1) = Cert.ReferenceIdeal.Read.val_main_v1 (F := Ideal) x1)
    (h3 : W4 m ρ c (Proc.devRef .tc main_v3) = Cert.ReferenceIdeal.Read.val_main_v3 (F := Ideal) x1) :
    W5 m ρ c (Proc.devRef .tc main_v90)
      = Cert.ReferenceIdeal.Read.val_main_v120 (F := Ideal) x0 x1 x2 x3 x4 x5 x6 x7 x8 := by
  show StableHlo.after hostOps1 (W4 m ρ c) (Proc.devRef .tc main_v90) = _
  after_results_simp
  rw [h59, h7, h1, h3]
  rfl

set_option maxHeartbeats 4000000 in
/-- The self weight, as the second kernel finds it, is the reference's. -/
theorem selfw_eq (c : Dev nD)
    (x1 : (⟨Cert.ReferenceIdeal.S2x1600000, .i32⟩ : BufTy).Contents (Elt Ideal))
    (h7 : W4 m ρ c (Proc.devRef .tc main_v7) = Cert.ReferenceIdeal.Read.val_main_v7 (F := Ideal) x1) :
    W5 m ρ c (Proc.devRef .tc main_v92) = Cert.ReferenceIdeal.Read.val_main_v122 (F := Ideal) x1 := by
  show StableHlo.after hostOps1 (W4 m ρ c) (Proc.devRef .tc main_v92) = _
  after_results_simp
  rw [h7]
  rfl

set_option maxHeartbeats 4000000 in
/-- The host operations between the kernels do not write the first kernel's output. -/
theorem hw_kept (c : Dev nD) : W5 m ρ c (Proc.devRef .tc main_v59) = W4 m ρ c (Proc.devRef .tc main_v59) :=
  StableHlo.after_of_forall_not_mem (b := Proc.devRef .tc main_v59) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

set_option maxHeartbeats 4000000 in
/-- Nor the output bias. -/
theorem bias_kept (c : Dev nD) : W5 m ρ c (Proc.devRef .tc main_arg9) = W4 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.Bridge.GlueAfter

end
-- ==== Proof.Bridge.lean ====
/-
  The kernel program's result is the reference's last stage of the launch arguments.

  Read along the run: the host stretches before the first kernel leave the two propagated feature arrays at the
  reference's stages of the arguments and the arguments untouched; the first kernel's output array is, row by row,
  the dense row function of its entry arrays, and so is the reference's projected-feature stage of its own earlier
  stages — hence the two agree; the host stretch between the kernels applies to that array, to the degrees and to
  the edge indices the same operations the reference applies to its stages, so the aggregate and the self-loop
  weight agree; the second kernel's output array is, row by row, the log-softmax row function of its entry arrays,
  and so is the reference's last stage of its earlier ones. The result buffer ends holding the second kernel's
  output array.
-/
import proofs.«178533_j58703613002386_2_alg».proof.Proof.KernelRun
import proofs.«178533_j58703613002386_2_alg».proof.Proof.DenseArray
import proofs.«178533_j58703613002386_2_alg».proof.Proof.LsmArray
import proofs.«178533_j58703613002386_2_alg».proof.Proof.DenseKernel
import proofs.«178533_j58703613002386_2_alg».proof.Proof.DenseReference
import proofs.«178533_j58703613002386_2_alg».proof.Proof.LsmKernel
import proofs.«178533_j58703613002386_2_alg».proof.Proof.LsmReference
import proofs.«178533_j58703613002386_2_alg».proof.Proof.GlueBefore
import proofs.«178533_j58703613002386_2_alg».proof.Proof.GlueBefore2
import proofs.«178533_j58703613002386_2_alg».proof.Proof.GlueAfter

set_option maxRecDepth 16384

noncomputable section

namespace Cert.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's projected-feature stage of the kernel program's launch arguments. -/
abbrev refHw (c : Dev nD) := Cert.ReferenceIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The reference's last stage of the kernel program's launch arguments. -/
abbrev refOut (c : Dev nD) := Cert.ReferenceIdeal.Read.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The first kernel's output array is the reference's projected features. -/
theorem hw_eq (c : Dev nD) : W4 m ρ c (Proc.devRef .tc main_v59) = refHw m c := by
  have h1 : W4 m ρ c (Proc.devRef .tc main_v59) = (dat0 (V3 m ρ) c).arrAt 10 cfg0.N := W4_arr m ρ c 10
  rw [h1, Dense.final (V3 m ρ) rowDense out0_10_apply c]
  funext (i : S100000x64.Idx)
  obtain ⟨r, q, rfl⟩ : ∃ (r : Fin 100000) (q : Fin 64), i = ix2 r q := ⟨i 0, i 1, eq_ix2 i⟩
  rw [Dense.hwArr_apply (V3 m ρ) rowDense c (ix2 r q) r q rfl rfl]
  unfold Dense.hwAt
  have e0 : V3 m ρ c main_arg0 = (m ((c.tc : Thread nD τ).loc main_arg0)) := GlueBefore.arg0_kept m ρ c
  have e2 : V3 m ρ c main_arg2 = (m ((c.tc : Thread nD τ).loc main_arg2)) := GlueBefore.arg2_kept m ρ c
  have e3 : V3 m ρ c main_arg3 = (m ((c.tc : Thread nD τ).loc main_arg3)) := GlueBefore.arg3_kept m ρ c
  have e4 : V3 m ρ c main_arg4 = (m ((c.tc : Thread nD τ).loc main_arg4)) := GlueBefore.arg4_kept m ρ c
  have e5 : V3 m ρ c main_arg5 = (m ((c.tc : Thread nD τ).loc main_arg5)) := GlueBefore.arg5_kept m ρ c
  have e6 : V3 m ρ c main_arg6 = (m ((c.tc : Thread nD τ).loc main_arg6)) := GlueBefore.arg6_kept m ρ c
  have e7 : V3 m ρ c main_arg7 = (m ((c.tc : Thread nD τ).loc main_arg7)) := GlueBefore.arg7_kept m ρ c
  have e8 : V3 m ρ c main_arg8 = (m ((c.tc : Thread nD τ).loc main_arg8)) := GlueBefore.arg8_kept m ρ c
  have e42 : V3 m ρ c main_v42 = Cert.ReferenceIdeal.Read.val_main_v45 (F := Ideal) (m ((c.tc : Thread nD τ).loc main_arg0)) (m ((c.tc : Thread nD τ).loc main_arg1)) := GlueBefore.tx1_eq m ρ c
  have e58 : V3 m ρ c main_v58 = Cert.ReferenceIdeal.Read.val_main_v65 (F := Ideal) (m ((c.tc : Thread nD τ).loc main_arg0)) (m ((c.tc : Thread nD τ).loc main_arg1)) := GlueBefore.tx2_eq m ρ c
  rw [e0, e2, e3, e4, e5, e6, e7, e8, e42, e58]
  exact (ref_hw_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) r q).symm

/-- The second kernel's output array is the reference's last stage. -/
theorem out_eq (c : Dev nD) : W6 m ρ c (Proc.devRef .tc main_v93) = refOut m c := by
  have h1 : W6 m ρ c (Proc.devRef .tc main_v93) = (dat1 (V5 m ρ) c).arrAt 4 cfg1.N := W6_arr m ρ c 4
  rw [h1, Lsm.final (V5 m ρ) rowLsm out1_4_apply c]
  funext (i : S100000x64.Idx)
  obtain ⟨r, q, rfl⟩ : ∃ (r : Fin 100000) (q : Fin 64), i = ix2 r q := ⟨i 0, i 1, eq_ix2 i⟩
  rw [Lsm.outArr_apply (V5 m ρ) rowLsm c (ix2 r q) r q rfl rfl]
  unfold Lsm.outAt
  have h7 : W4 m ρ c (Proc.devRef .tc main_v7) = Cert.ReferenceIdeal.Read.val_main_v7 (F := Ideal) (m ((c.tc : Thread nD τ).loc main_arg1)) :=
    (W4_of_ne m ρ c main_v7 (by decide)).trans (GlueBefore.deg_eq m ρ c)
  have hs : W4 m ρ c (Proc.devRef .tc main_v1) = Cert.ReferenceIdeal.Read.val_main_v1 (F := Ideal) (m ((c.tc : Thread nD τ).loc main_arg1)) :=
    (W4_of_ne m ρ c main_v1 (by decide)).trans (GlueBefore.src_eq m ρ c)
  have hd : W4 m ρ c (Proc.devRef .tc main_v3) = Cert.ReferenceIdeal.Read.val_main_v3 (F := Ideal) (m ((c.tc : Thread nD τ).loc main_arg1)) :=
    (W4_of_ne m ρ c main_v3 (by decide)).trans (GlueBefore.dst_eq m ρ c)
  have e90 : V5 m ρ c main_v90 = Cert.ReferenceIdeal.Read.val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
    GlueAfter.agg_eq m ρ c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (hw_eq m ρ c) h7 hs hd
  have e59 : V5 m ρ c main_v59 = refHw m c := (GlueAfter.hw_kept m ρ c).trans (hw_eq m ρ c)
  have e92 : V5 m ρ c main_v92 = Cert.ReferenceIdeal.Read.val_main_v122 (F := Ideal) (m ((c.tc : Thread nD τ).loc main_arg1)) := GlueAfter.selfw_eq m ρ c (m ((c.tc : Thread nD τ).loc main_arg1)) h7
  have e9 : V5 m ρ c main_arg9 = (m ((c.tc : Thread nD τ).loc main_arg9)) :=
    (GlueAfter.bias_kept m ρ c).trans ((W4_of_ne m ρ c main_arg9 (by decide)).trans (GlueBefore.arg9_kept m ρ c))
  rw [e90, e59, e92, e9]
  exact (ref_out_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r q).symm

/-- The kernel program's run with its result at the reference's last stage of the launch arguments. -/
theorem kernel_value_run : θ_run defs (onTc (τ := τ) (main (F := Ideal))) ⟨m, fun _ => 0, ρ⟩ (fun r => ∀ c : Dev nD,
      r.2.mem ((c.tc : Thread nD τ).loc main_v93) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (out_eq m ρ c), (h c).2⟩) (kernel_run m ρ)

end Cert.Bridge

end
-- ==== Proof.lean ====
/-
  The certificate of a two-layer graph network on 100000 nodes and 1600000 edges: a Chebyshev layer of order three
  (x·W₀ + Tx₁·W₁ + Tx₂·W₂ + b, batch normalisation with running statistics, ReLU), a graph-convolution layer
  (the normalised aggregate of h·W over the edges plus the self loop plus a bias), and a row-wise log-softmax over the
  64 output columns.

  The kernel program does the sparse propagation (gather and scatter-add over the edges) in host operations and the
  dense per-node work in two pipelined kernels over blocks of 2000 rows: the first computes h·W from the three
  feature arrays, the second the self-loop combination, the bias and the log-softmax. The reference computes the same
  with whole-array host operations. At the ideal instance — every float an extended real, every operation exact, a
  change of float format the identity — both programs apply the same functions to the same values: the host
  operations of the kernel program are, stretch by stretch, the reference's own; each kernel is row-local, so the
  array it leaves is, row by row, one function of the rows of the arrays it is entered with, and the reference's
  corresponding stage is the same function of the rows of its earlier stages (a matrix product of a block of rows is
  the block of rows of the matrix product; a sum or a maximum along a row does not see the other rows). No law of the
  extended reals beyond that is needed, and the precondition (finite inputs) is never opened.

  Frames: the two kernel programs' frames are their generated frame certificates; the reference's frame is its run
  with the result dropped. The idealization rewrote no operation, so `preserves` is `True`.
-/
import proofs.«178533_j58703613002386_2_alg».proof.Defs
import proofs.«178533_j58703613002386_2_alg».proof.Proof.Gen.Kernel
import proofs.«178533_j58703613002386_2_alg».proof.Proof.Gen.Kernel.Skeleton
import proofs.«178533_j58703613002386_2_alg».proof.Proof.Gen.Kernel.Launch
import proofs.«178533_j58703613002386_2_alg».proof.Proof.Gen.Kernel.Points
import proofs.«178533_j58703613002386_2_alg».proof.Proof.Gen.Kernel.Frame
import proofs.«178533_j58703613002386_2_alg».proof.Proof.Gen.KernelIdeal
import proofs.«178533_j58703613002386_2_alg».proof.Proof.Gen.KernelIdeal.Skeleton
import proofs.«178533_j58703613002386_2_alg».proof.Proof.Gen.KernelIdeal.Launch
import proofs.«178533_j58703613002386_2_alg».proof.Proof.Gen.KernelIdeal.Points
import proofs.«178533_j58703613002386_2_alg».proof.Proof.Gen.KernelIdeal.Frame
import proofs.«178533_j58703613002386_2_alg».proof.Proof.Gen.ReferenceIdeal
import proofs.«178533_j58703613002386_2_alg».proof.Proof.Gen.Pre_finite_inputs
import proofs.«178533_j58703613002386_2_alg».proof.Proof.ReferenceRun
import proofs.«178533_j58703613002386_2_alg».proof.Proof.Bridge
import Idealize.ShloMosaic.Adequacy
import Idealize.ShloMosaic.Init

noncomputable section

namespace Cert.Proof

open Idealize.ShloMosaic Idealize.SL.Sem

/-- The word-level kernel program runs and keeps its arguments: its generated frame certificate. -/
theorem frame_kernel : Cert.frame_Kernel := fun m ρ _ => Cert.Kernel.Gen.frame m ρ

/-- The idealized kernel program runs and keeps its arguments: its generated frame certificate. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.Bridge.RefRun.run (F := Ideal) m ρ)

/-- The idealization rewrote nothing. -/
theorem preserves : Cert.preserves_Kernel_KernelIdeal := trivial

/-- From memories agreeing on the arguments both programs end with the reference's last stage of those arguments
    in their result buffers. -/
theorem algebraic : Cert.algebraic_KernelIdeal_ReferenceIdeal := by
  intro m ρ m' ρ' _ hagree
  refine ⟨fun c => Cert.Bridge.refOut m c, Cert.Bridge.kernel_value_run m ρ, ?_⟩
  refine (θ_run Cert.ReferenceIdeal.defs _ _).mono (fun _ h c => ⟨(h c).1.trans ?_, (h c).2⟩)
    (Cert.Bridge.RefRun.run (F := Ideal) m' ρ')
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
